-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S512x1024 : Shape := ⟨2, ![512, 1024]⟩
abbrev S1024x1 : Shape := ⟨2, ![1024, 1]⟩
abbrev S1024 : Shape := ⟨1, ![1024]⟩

abbrev nBuf : Space → Nat
  | .hbm => 8
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .f32 = 32 ∨ (Rect.block (s := S4096x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Region0.lean ====
/- Region 0 of the program: the fused projection kernel on its grid of 8 row blocks, at a parameter `V` (the buffer
   contents when the region is entered) and at any float instance. Each grid point `t` reads the 512 x 1024 row block
   `t` of the activations and the three whole 1024 x 1024 weight matrices, and writes the row block `t` of three
   products: (x·Wq) scaled by 1/32, x·Wk, and x·Wv (the last rounded to the narrower format). This module states
   what every window's staging buffer holds before and after the body at a point, proves the body's triple, and
   packages both as the pipeline's proof data and body obligation. -/
import proofs.«116390_j18897856102400_2_alg».proof.Proof.Gen.KernelIdeal.Launch
import proofs.«116390_j18897856102400_2_alg».proof.Proof.Gen.KernelIdeal.Skeleton
import proofs.«116390_j18897856102400_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there (an unfetched window's block index has not moved, so the buffer still holds this point's block), for any
    proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there (an unfetched window's block index has not moved, so the buffer still holds this point's block), for any
    proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there (an unfetched window's block index has not moved, so the buffer still holds this point's block), for any
    proof data whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not the pipeline fetched it
    there (an unfetched window's block index has not moved, so the buffer still holds this point's block), for any
    proof data whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 1024 block. -/
abbrev rBlk : Rect S512x1024 := Rect.unit (s := S512x1024) ![0, 0] S512x1024.size inb_S512x1024_S512x1024_0_0
/-- The whole 1024 x 1024 weight matrix. -/
abbrev rMat : Rect S1024x1024 := Rect.unit (s := S1024x1024) ![0, 0] S1024x1024.size inb_S1024x1024_S1024x1024_0_0

/-! ## What the body leaves in each output window's buffer -/

/-- The first output's buffer after the body: one whole-block store of (x·Wq)·(1/32). -/
def out0_4 (x0 : Vec F S512x1024 .f32) (x1 : Vec F S1024x1024 .f32) : Vec F S512x1024 .f32 :=
  View.canon [⟨rBlk, k0_pay1 (View.ld x0 rBlk) (View.ld x1 rMat)⟩]
/-- The second output's buffer after the body: one whole-block store of x·Wk. -/
def out0_5 (x0 : Vec F S512x1024 .f32) (x2 : Vec F S1024x1024 .f32) : Vec F S512x1024 .f32 :=
  View.canon [⟨rBlk, k0_pay2 (View.ld x0 rBlk) (View.ld x2 rMat)⟩]
/-- The third output's buffer after the body: one whole-block store of x·Wv in the narrower format. -/
def out0_6 (x0 : Vec F S512x1024 .f32) (x3 : Vec F S1024x1024 .f32) : Vec F S512x1024 .bf16 :=
  View.canon [⟨rBlk, k0_pay3 (View.ld x0 rBlk) (View.ld x3 rMat)⟩]

/-- One whole-block store covers the buffer. -/
theorem cover_blk {e : EltTy} (p0 : Vec F S512x1024 e) (y : S512x1024.Idx) :
    ∃ pc ∈ ([⟨rBlk, p0⟩] : List (View.Piece (Elt F) S512x1024 e)), y ∈ pc.1.set :=
  View.cover_of_tiled [⟨rBlk, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs'. The body reads
    each output's buffer before it stores the whole block over it; what it read there is not used. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .bf16) (harg7 : arg7.IsWhole)
    (x0 : Vec F S512x1024 .f32) (x1 : Vec F S1024x1024 .f32) (x2 : Vec F S1024x1024 .f32) (x3 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_blk _)
  isplitl [H5]
  · iexists _; isplitr
    swap; · iexact H5
    ipureintro
    exact View.read_writes_eq_canon _ _ _ (cover_blk _)
  iexists _; isplitr
  swap; · iexact H6
  ipureintro
  exact View.read_writes_eq_canon _ _ _ (cover_blk _)

/-! ## The pipeline's proof data -/

/-- The proof data of the projection pipeline on core `c`: the arrays as the region finds them (`V`); after the body at
    point `t` each input's buffer at its block and each output's at its product of the input blocks; the invariant is
    the untouched scoped rest and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.KernelIdeal.Hand.body_obligation0' depends on axioms: [propext, Classical.choice, Quot.sound] -/
#guard_msgs in #print axioms body_obligation0

end Cert.KernelIdeal.Hand

end
-- ==== Proof.Carry.lean ====
/-
  The flash-attention body as pure functions. Between two key/value blocks of one query block the body keeps three
  arrays: the running row maximum `m` (1024×1), the running normaliser `l` (1024×1) and the running weighted sum of the
  value rows `acc` (1024×1024). One visit of a key/value block (k, v) with the query block q replaces them by

      m' = max m (rowmax (q·kᵀ)),   a = exp (m − m'),   p = exp (q·kᵀ − m'),
      l' = a·l + rowsum p,          acc' = a·acc + p·v,

  the first visit starting from m = −∞, l = 0, acc = 0; after the last visit the block written out is acc' / l'.
  The arithmetic is the printed body's own (the skeleton's payload terms), named here once so that the run of the
  body and the reading of its values at an index speak of the same functions.
-/
import proofs.«116390_j18897856102400_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The three arrays carried from one key/value block to the next: row maximum, normaliser, weighted sum. -/
abbrev Carry (F : FTy → Type) [FloatOps F] : Type :=
  Vec F S1024x1 .f32 × Vec F S1024x1 .f32 × Vec F S1024x1024 .f32

/-- The carry a query block starts from: maximum −∞, normaliser 0, weighted sum 0. -/
def carry0 : Carry F := (k1_pay4, k1_pay5, k1_pay6)

/-- One key/value block visited: the new maximum, normaliser and weighted sum from the old ones. -/
def carryStep (q k : Vec F S1024x1024 .f32) (v : Vec F S1024x1024 .bf16) (s : Carry F) : Carry F :=
  (k1_pay2 (k1_pay8 q k s.1), k1_pay11 q k s.1 s.1 s.2.1, k1_pay1 (k1_pay12 q k v s.1 s.1 s.2.2))

/-- The block written out after the last key/value block: the weighted sum divided, row by row, by the normaliser. -/
def carryOut (s : Carry F) : Vec F S1024x1024 .f32 := k1_pay3 s.2.2 s.2.1

end Cert.KernelIdeal.Hand

end
-- ==== Proof.R1Defs.lean ====
/-
  The attention pallas_call's grid is 4 query blocks by 4 key/value blocks, visited query block by query block: point t
  has query block t / 4 and key/value block t % 4. The body resets its carried arrays at the first key/value block
  (t % 4 = 0) and writes the output block at the last (t % 4 = 3); at the other points the output window is idle and
  is not written back. Here: those two conditions in closed form over the grid, where the output window is idle, the
  names of the staging and scratch buffers the body is called with, and the class invariant with the three scratch
  buffers spelt out.
-/
import proofs.«116390_j18897856102400_2_alg».proof.Proof.Gen.KernelIdeal.Launch
import proofs.«116390_j18897856102400_2_alg».proof.Proof.Gen.KernelIdeal.Skeleton
import proofs.«116390_j18897856102400_2_alg».proof.Proof.Gen.KernelIdeal.Points
import proofs.«116390_j18897856102400_2_alg».proof.Proof.Carry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch (reset the carry) is taken: key/value block 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch (write the output block) is taken: key/value block 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, away from the last key/value block; live there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging buffer at point `t`, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch buffers (row maximum, normaliser, weighted sum): whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- A scoped buffer the attention body never touches (a staging buffer of the projection pallas_call), held whole at some contents. -/
abbrev oth (c : Dev nD) (r : Ref sig .tc) : sProp 𝕄 :=
  iprop(∃ f : Buf (Elt F) ((c : Thread nD τ).loc r), ((c : Thread nD τ).loc r) ↦{fullShare} f)

/-- All of them. -/
def others1 (c : Dev nD) : sProp 𝕄 :=
  iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg4_0 ∗ oth (F := F) c cc0_stg4_1 ∗ oth (F := F) c cc0_stg5_0 ∗ oth (F := F) c cc0_stg5_1 ∗ oth (F := F) c cc0_stg6_0 ∗ oth (F := F) c cc0_stg6_1)

/-- The class invariant of the attention pallas_call, spelt out: the scoped buffers no window of it stages — the
    projection pallas_call's staging buffers and the three scratch buffers — each whole at some contents, beside the
    generator register at some state. -/
theorem PhiA1_eq (c : Dev nD) :
    (Pipeline.ΦA spec1 c : sProp 𝕄)
      = iprop(iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg4_0 ∗ oth (F := F) c cc0_stg4_1 ∗ oth (F := F) c cc0_stg5_0 ∗ oth (F := F) c cc0_stg5_1 ∗ oth (F := F) c cc0_stg6_0 ∗ oth (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The same with the untouched buffers grouped: entering … -/
theorem PhiA1_open (c : Dev nD) :
    (Pipeline.ΦA spec1 c : sProp 𝕄)
      ⊢ iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold others1
  iintro ⟨⟨A1, A2, A3, A4, A5, A6, A7, A8, A9, A10, A11, S0, S1, S2⟩, Hg⟩
  isplitl [A1 A2 A3 A4 A5 A6 A7 A8 A9 A10 A11]
  ·
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [S0]; · iexact S0
  isplitl [S1]; · iexact S1
  isplitl [S2]; · iexact S2
  iexact Hg

/-- … and leaving. -/
theorem PhiA1_close (c : Dev nD) :
    iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  rw [PhiA1_eq]; unfold others1
  iintro ⟨⟨A1, A2, A3, A4, A5, A6, A7, A8, A9, A10, A11⟩, S0, S1, S2, Hg⟩
  isplitr [Hg]
  ·
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    isplitl [S1]; · iexact S1
    iexact S2
  iexact Hg

end Cert.KernelIdeal.Hand

end
-- ==== Proof.R1RunA.lean ====
/-
  The attention body run at the first key/value block of a query block: it first stores the starting carry (maximum −∞,
  normaliser 0, weighted sum 0) over whatever the three scratch buffers held, then proceeds as at any block; the
  output window's buffer is handed back untouched. The pieces each scratch buffer ends with are found by the run.
-/
import proofs.«116390_j18897856102400_2_alg».proof.Proof.R1Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.R1RunB.lean ====
/-
  The attention body run at a middle key/value block (neither the first nor the last of its query block): it loads the
  query, key and value blocks and the three carried arrays, and stores the three carried arrays anew; the output
  window's buffer is handed back untouched. The pieces each scratch buffer ends with are found by the run.
-/
import proofs.«116390_j18897856102400_2_alg».proof.Proof.R1Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.R1RunC.lean ====
/-
  The attention body run at the last key/value block of a query block: it updates the three carried arrays as at any
  block and then stores the quotient of the weighted sum by the normaliser into the output window's buffer. The pieces
  the output buffer and each scratch buffer end with are found by the run.
-/
import proofs.«116390_j18897856102400_2_alg».proof.Proof.R1Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.Region1.lean ====
/-
  The attention pallas_call, at the contents `V` its region is entered with: what the three carried arrays and the output
  window's buffer hold after each grid point (by recursion on the point: the first key/value block of a query block starts
  from the reset carry, every later one from what the point before left; the output block is written at the last), the
  invariant that carries the scratch buffers from one point to the next, the pipeline's proof data and the body obligation
  at every point.
-/
import proofs.«116390_j18897856102400_2_alg».proof.Proof.R1RunA
import proofs.«116390_j18897856102400_2_alg».proof.Proof.R1RunB
import proofs.«116390_j18897856102400_2_alg».proof.Proof.R1RunC
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- A staging buffer of the output window, and the scratch buffers, as views: contents are stated through them. -/
abbrev VO1_3 : View sig .tc .vmem S1024x1024 .f32 := (Memref.whole cc1_stg3_0 : Memref sig .tc .vmem S1024x1024 .f32).view
abbrev VS1_0 : View sig .tc .vmem S1024x1 .f32 := (scM1_0 : Memref sig .tc .vmem S1024x1 .f32).view
abbrev VS1_1 : View sig .tc .vmem S1024x1 .f32 := (scM1_1 : Memref sig .tc .vmem S1024x1 .f32).view
abbrev VS1_2 : View sig .tc .vmem S1024x1024 .f32 := (scM1_2 : Memref sig .tc .vmem S1024x1024 .f32).view

/-- The stores of this case into scratch buffer 0 cover it. -/
theorem scover1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S1024x1.size (by sl_kernel_rfl) y

/-- What scratch buffer 0 holds after the body in this case: its stored pieces read back. -/
def sout1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

/-- The stores of this case into scratch buffer 1 cover it. -/
theorem scover1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What scratch buffer 1 holds after the body in this case: its stored pieces read back. -/
def sout1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- The stores of this case into scratch buffer 2 cover it. -/
theorem scover1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) (y : S1024x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1024.size (by sl_kernel_rfl) y

/-- What scratch buffer 2 holds after the body in this case: its stored pieces read back. -/
def sout1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

/-- The stores of this case into scratch buffer 0 cover it. -/
theorem scover1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S1024x1.size (by sl_kernel_rfl) y

/-- What scratch buffer 0 holds after the body in this case: its stored pieces read back. -/
def sout1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

/-- The stores of this case into scratch buffer 1 cover it. -/
theorem scover1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What scratch buffer 1 holds after the body in this case: its stored pieces read back. -/
def sout1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

/-- The stores of this case into scratch buffer 2 cover it. -/
theorem scover1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1024.size (by sl_kernel_rfl) y

/-- What scratch buffer 2 holds after the body in this case: its stored pieces read back. -/
def sout1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

/-- At the last key/value block the one store into the output window's buffer covers it. -/
theorem cover1_C_3 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y

/-- What the output window's buffer then holds: the stored pieces read back. -/
def out1_C_3 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) : Vec F S1024x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- The stores of this case into scratch buffer 0 cover it. -/
theorem scover1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What scratch buffer 0 holds after the body in this case: its stored pieces read back. -/
def sout1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- The stores of this case into scratch buffer 1 cover it. -/
theorem scover1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What scratch buffer 1 holds after the body in this case: its stored pieces read back. -/
def sout1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- The stores of this case into scratch buffer 2 cover it. -/
theorem scover1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y

/-- What scratch buffer 2 holds after the body in this case: its stored pieces read back. -/
def sout1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the buffers hold after each point -/

/-- After the body at position `n`: the output window's buffer (a placeholder where the window is idle: nothing reads it
    there) and the three carried arrays. -/
def outsAt1 (c : Dev nD) : (n : ℕ) → n < cfg1.N → Vec F S1024x1024 .f32 × Carry F
  | 0, hn => (VO1_3.read (Elt F) VO1_3.junk, (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩)))
  | n + 1, hn =>
    if h0 : (n + 1) % 4 = 0 then
      if h1 : (n + 1) % 4 = 3 then False.elim (by omega)
      else (VO1_3.read (Elt F) VO1_3.junk, (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2))
      else
        (VO1_3.read (Elt F) VO1_3.junk, (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2))

/-- At a first key/value block: the reset carry visited once. -/
theorem outsAt1_A (c : Dev nD) (t : Fin cfg1.N) (h0 : t.val % 4 = 0) (h1 : ¬t.val % 4 = 3) :
    outsAt1 V c t.val t.isLt = (VO1_3.read (Elt F) VO1_3.junk, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))) := by
  obtain ⟨n, hn⟩ := t
  cases n with
  | zero => exact rfl
  | succ n => exact (dif_pos h0).trans ((dif_neg h1).trans rfl)

/-- At a middle key/value block: one more visit, over what the point before left. -/
theorem outsAt1_B (c : Dev nD) (t : Fin cfg1.N) (h0 : ¬t.val % 4 = 0) (h1 : ¬t.val % 4 = 3) :
    outsAt1 V c t.val t.isLt = (VO1_3.read (Elt F) VO1_3.junk, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_neg h1).trans rfl)

/-- At a last key/value block: one more visit, and the output block. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the untouched scoped
    buffers, the three scratch buffers at what the point before left, and the generator register at some state. -/
def PhiS (c : Dev nD) : (n : ℕ) → n ≤ cfg1.N → sProp 𝕄
  | 0, _ => Pipeline.ΦA spec1 c
  | n + 1, hn => iprop(others1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(others1 (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The pipeline's proof data -/

/-- The arrays as the region finds them; after the body each input's buffer at its block, the output's at `outsAt1`'s
    first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.Region1Body.lean ====
/-
  The body obligation of the attention pallas_call at every grid point: which of the body's three cases a point is in is
  read off the point's position in its query block; the carried scratch buffers come out of the invariant at what the
  point before left (at anything before a query block's first visit, which resets them) and go back at this point's.
-/
import proofs.«116390_j18897856102400_2_alg».proof.Proof.Region1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0 sout1_A_1 sout1_A_2; (try dsimp only)
    by_cases hz : t.val = 0
    ·
      rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_open (F := F) c) $$ HΦ
      icases HΦ' with ⟨Hoth, HS0, HS1, HS2, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht]
  iintro ⟨Hoth, HS0, HS1, HS2, Hg⟩
  iapply (PhiA1_close (F := F) c)
  isplitl [Hoth]; · iexact Hoth
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ (Pipeline.ΦA spec1 c : sProp 𝕄) :=
  Phi_out1 V c _ (by rw [Fin.val_last]; have : cfg1.N = 16 := N_1; omega)

end Cert.KernelIdeal.Hand

end
-- ==== Proof.Run.lean ====
/-
  The run of the whole program: @main is the projection pallas_call followed by the attention pallas_call, with no host
  operation around them. The buffer contents at the three boundaries are named (launch; after the projections: the
  three projected arrays at what the write-backs leave, everything else as launched; after the attention: the result
  array at what its write-backs leave), each pallas_call is a segment entered from the boundary before it, and every weakly
  fair execution terminates in a memory whose unscoped buffers hold the last boundary's contents. Read at the argument
  arrays that is the frame; read at the result array it names the result.
-/
import proofs.«116390_j18897856102400_2_alg».proof.Proof.Region0
import proofs.«116390_j18897856102400_2_alg».proof.Proof.Region1Body
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the projection pallas_call: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the attention pallas_call: its arrays at what the pipeline leaves, every other buffer as it was entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The argument arrays end as launched: the attention pallas_call does not stage them, the projection pallas_call only reads them -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl

/-- The result array ends at what the attention pipeline's write-backs leave. -/
theorem W2_main_v1 (c : Dev nD) : W2 m c (Proc.devRef .tc main_v1) = (dat1 (V1 m) c).arrAt 3 cfg1.N :=
  W2_arr m c 3

/-- The attention pallas_call finds the projected arrays at what the projection pipeline's write-backs left. -/
theorem V1_main_v0_0 (c : Dev nD) : V1 m c main_v0_0 = (dat0 (V0 m) c).arrAt 4 cfg0.N := W1_arr m c 4
theorem V1_main_v0_1 (c : Dev nD) : V1 m c main_v0_1 = (dat0 (V0 m) c).arrAt 5 cfg0.N := W1_arr m c 5
theorem V1_main_v0_2 (c : Dev nD) : V1 m c main_v0_2 = (dat0 (V0 m) c).arrAt 6 cfg0.N := W1_arr m c 6

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The pallas_calls as segments -/

set_option backward.isDefEq.respectTransparency.types false in
/-- Pallas_call 0 as a segment of @main over the thread state "every unscoped buffer at the boundary's contents, the
    generator register at some state, nothing owed": its arrays are split out of the unscoped buffers on entry and put
    back at what the write-backs leave on exit; the generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment of @main over the thread state "every unscoped buffer at the boundary's contents, the
    generator register at some state, nothing owed": its arrays are split out of the unscoped buffers on entry and put
    back at what the write-backs leave on exit; the generator register goes into the region's invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m) c)
    unfold Pipeline.ΦA
    iintro ⟨Hp, -, Hr⟩
    isplitl [Hr]; · iexact Hr
    iexact Hp
  hout c := by
    refine (hout1 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, in a memory
    whose every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The run read at the result array and at the argument arrays. -/
theorem run_named : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.KernelIdeal.Hand

end
-- ==== Proof.KRegion0.lean ====
/- Region 0 of the program: the fused projection kernel on its grid of 8 row blocks, at a parameter `V` (the buffer
   contents when the region is entered) and at any float instance. Each grid point `t` reads the 512 x 1024 row block
   `t` of the activations and the three whole 1024 x 1024 weight matrices, and writes the row block `t` of three
   products: (x·Wq) scaled by 1/32, x·Wk, and x·Wv (the last rounded to the narrower format). This module states
   what every window's staging buffer holds before and after the body at a point, proves the body's triple, and
   packages both as the pipeline's proof data and body obligation. -/
import proofs.«116390_j18897856102400_2_alg».proof.Proof.Gen.Kernel.Launch
import proofs.«116390_j18897856102400_2_alg».proof.Proof.Gen.Kernel.Skeleton
import proofs.«116390_j18897856102400_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there (an unfetched window's block index has not moved, so the buffer still holds this point's block), for any
    proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there (an unfetched window's block index has not moved, so the buffer still holds this point's block), for any
    proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there (an unfetched window's block index has not moved, so the buffer still holds this point's block), for any
    proof data whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not the pipeline fetched it
    there (an unfetched window's block index has not moved, so the buffer still holds this point's block), for any
    proof data whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 1024 block. -/
abbrev rBlk : Rect S512x1024 := Rect.unit (s := S512x1024) ![0, 0] S512x1024.size inb_S512x1024_S512x1024_0_0
/-- The whole 1024 x 1024 weight matrix. -/
abbrev rMat : Rect S1024x1024 := Rect.unit (s := S1024x1024) ![0, 0] S1024x1024.size inb_S1024x1024_S1024x1024_0_0

/-! ## What the body leaves in each output window's buffer -/

/-- The first output's buffer after the body: one whole-block store of (x·Wq)·(1/32). -/
def out0_4 (x0 : Vec F S512x1024 .f32) (x1 : Vec F S1024x1024 .f32) : Vec F S512x1024 .f32 :=
  View.canon [⟨rBlk, k0_pay1 (View.ld x0 rBlk) (View.ld x1 rMat)⟩]
/-- The second output's buffer after the body: one whole-block store of x·Wk. -/
def out0_5 (x0 : Vec F S512x1024 .f32) (x2 : Vec F S1024x1024 .f32) : Vec F S512x1024 .f32 :=
  View.canon [⟨rBlk, k0_pay2 (View.ld x0 rBlk) (View.ld x2 rMat)⟩]
/-- The third output's buffer after the body: one whole-block store of x·Wv in the narrower format. -/
def out0_6 (x0 : Vec F S512x1024 .f32) (x3 : Vec F S1024x1024 .f32) : Vec F S512x1024 .bf16 :=
  View.canon [⟨rBlk, k0_pay3 (View.ld x0 rBlk) (View.ld x3 rMat)⟩]

/-- One whole-block store covers the buffer. -/
theorem cover_blk {e : EltTy} (p0 : Vec F S512x1024 e) (y : S512x1024.Idx) :
    ∃ pc ∈ ([⟨rBlk, p0⟩] : List (View.Piece (Elt F) S512x1024 e)), y ∈ pc.1.set :=
  View.cover_of_tiled [⟨rBlk, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs'. The body reads
    each output's buffer before it stores the whole block over it; what it read there is not used. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S512x1024 .bf16) (harg7 : arg7.IsWhole)
    (x0 : Vec F S512x1024 .f32) (x1 : Vec F S1024x1024 .f32) (x2 : Vec F S1024x1024 .f32) (x3 : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_blk _)
  isplitl [H5]
  · iexists _; isplitr
    swap; · iexact H5
    ipureintro
    exact View.read_writes_eq_canon _ _ _ (cover_blk _)
  iexists _; isplitr
  swap; · iexact H6
  ipureintro
  exact View.read_writes_eq_canon _ _ _ (cover_blk _)

/-! ## The pipeline's proof data -/

/-- The proof data of the projection pipeline on core `c`: the arrays as the region finds them (`V`); after the body at
    point `t` each input's buffer at its block and each output's at its product of the input blocks; the invariant is
    the untouched scoped rest and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.Kernel.Hand.body_obligation0' depends on axioms: [propext, Classical.choice, Quot.sound] -/
#guard_msgs in #print axioms body_obligation0

end Cert.Kernel.Hand

end
-- ==== Proof.KCarry.lean ====
/-
  The flash-attention body as pure functions. Between two key/value blocks of one query block the body keeps three
  arrays: the running row maximum `m` (1024×1), the running normaliser `l` (1024×1) and the running weighted sum of the
  value rows `acc` (1024×1024). One visit of a key/value block (k, v) with the query block q replaces them by

      m' = max m (rowmax (q·kᵀ)),   a = exp (m − m'),   p = exp (q·kᵀ − m'),
      l' = a·l + rowsum p,          acc' = a·acc + p·v,

  the first visit starting from m = −∞, l = 0, acc = 0; after the last visit the block written out is acc' / l'.
  The arithmetic is the printed body's own (the skeleton's payload terms), named here once so that the run of the
  body and the reading of its values at an index speak of the same functions.
-/
import proofs.«116390_j18897856102400_2_alg».proof.Proof.Gen.Kernel.Skeleton

noncomputable section

namespace Cert.Kernel.Hand

open Idealize.ShloMosaic Idealize.SL.Sem Cert.Kernel Cert.Kernel.Gen

variable {F : FTy → Type} [FloatOps F]

/-- The three arrays carried from one key/value block to the next: row maximum, normaliser, weighted sum. -/
abbrev Carry (F : FTy → Type) [FloatOps F] : Type :=
  Vec F S1024x1 .f32 × Vec F S1024x1 .f32 × Vec F S1024x1024 .f32

/-- The carry a query block starts from: maximum −∞, normaliser 0, weighted sum 0. -/
def carry0 : Carry F := (k1_pay4, k1_pay5, k1_pay6)

/-- One key/value block visited: the new maximum, normaliser and weighted sum from the old ones. -/
def carryStep (q k : Vec F S1024x1024 .f32) (v : Vec F S1024x1024 .bf16) (s : Carry F) : Carry F :=
  (k1_pay2 (k1_pay8 q k s.1), k1_pay11 q k s.1 s.1 s.2.1, k1_pay1 (k1_pay12 q k v s.1 s.1 s.2.2))

/-- The block written out after the last key/value block: the weighted sum divided, row by row, by the normaliser. -/
def carryOut (s : Carry F) : Vec F S1024x1024 .f32 := k1_pay3 s.2.2 s.2.1

end Cert.Kernel.Hand

end
-- ==== Proof.KR1Defs.lean ====
/-
  The attention pallas_call's grid is 4 query blocks by 4 key/value blocks, visited query block by query block: point t
  has query block t / 4 and key/value block t % 4. The body resets its carried arrays at the first key/value block
  (t % 4 = 0) and writes the output block at the last (t % 4 = 3); at the other points the output window is idle and
  is not written back. Here: those two conditions in closed form over the grid, where the output window is idle, the
  names of the staging and scratch buffers the body is called with, and the class invariant with the three scratch
  buffers spelt out.
-/
import proofs.«116390_j18897856102400_2_alg».proof.Proof.Gen.Kernel.Launch
import proofs.«116390_j18897856102400_2_alg».proof.Proof.Gen.Kernel.Skeleton
import proofs.«116390_j18897856102400_2_alg».proof.Proof.Gen.Kernel.Points
import proofs.«116390_j18897856102400_2_alg».proof.Proof.KCarry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch (reset the carry) is taken: key/value block 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch (write the output block) is taken: key/value block 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, away from the last key/value block; live there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging buffer at point `t`, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch buffers (row maximum, normaliser, weighted sum): whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-- A scoped buffer the attention body never touches (a staging buffer of the projection pallas_call), held whole at some contents. -/
abbrev oth (c : Dev nD) (r : Ref sig .tc) : sProp 𝕄 :=
  iprop(∃ f : Buf (Elt F) ((c : Thread nD τ).loc r), ((c : Thread nD τ).loc r) ↦{fullShare} f)

/-- All of them. -/
def others1 (c : Dev nD) : sProp 𝕄 :=
  iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg4_0 ∗ oth (F := F) c cc0_stg4_1 ∗ oth (F := F) c cc0_stg5_0 ∗ oth (F := F) c cc0_stg5_1 ∗ oth (F := F) c cc0_stg6_0 ∗ oth (F := F) c cc0_stg6_1)

/-- The class invariant of the attention pallas_call, spelt out: the scoped buffers no window of it stages — the
    projection pallas_call's staging buffers and the three scratch buffers — each whole at some contents, beside the
    generator register at some state. -/
theorem PhiA1_eq (c : Dev nD) :
    (Pipeline.ΦA spec1 c : sProp 𝕄)
      = iprop(iprop(oth (F := F) c cc0_stg0_0 ∗ oth (F := F) c cc0_stg0_1 ∗ oth (F := F) c cc0_stg1_0 ∗ oth (F := F) c cc0_stg2_0 ∗ oth (F := F) c cc0_stg3_0 ∗ oth (F := F) c cc0_stg4_0 ∗ oth (F := F) c cc0_stg4_1 ∗ oth (F := F) c cc0_stg5_0 ∗ oth (F := F) c cc0_stg5_1 ∗ oth (F := F) c cc0_stg6_0 ∗ oth (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The same with the untouched buffers grouped: entering … -/
theorem PhiA1_open (c : Dev nD) :
    (Pipeline.ΦA spec1 c : sProp 𝕄)
      ⊢ iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold others1
  iintro ⟨⟨A1, A2, A3, A4, A5, A6, A7, A8, A9, A10, A11, S0, S1, S2⟩, Hg⟩
  isplitl [A1 A2 A3 A4 A5 A6 A7 A8 A9 A10 A11]
  ·
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [S0]; · iexact S0
  isplitl [S1]; · iexact S1
  isplitl [S2]; · iexact S2
  iexact Hg

/-- … and leaving. -/
theorem PhiA1_close (c : Dev nD) :
    iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  rw [PhiA1_eq]; unfold others1
  iintro ⟨⟨A1, A2, A3, A4, A5, A6, A7, A8, A9, A10, A11⟩, S0, S1, S2, Hg⟩
  isplitr [Hg]
  ·
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    isplitl [S1]; · iexact S1
    iexact S2
  iexact Hg

end Cert.Kernel.Hand

end
-- ==== Proof.KR1RunA.lean ====
/-
  The attention body run at the first key/value block of a query block: it first stores the starting carry (maximum −∞,
  normaliser 0, weighted sum 0) over whatever the three scratch buffers held, then proceeds as at any block; the
  output window's buffer is handed back untouched. The pieces each scratch buffer ends with are found by the run.
-/
import proofs.«116390_j18897856102400_2_alg».proof.Proof.KR1Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KR1RunB.lean ====
/-
  The attention body run at a middle key/value block (neither the first nor the last of its query block): it loads the
  query, key and value blocks and the three carried arrays, and stores the three carried arrays anew; the output
  window's buffer is handed back untouched. The pieces each scratch buffer ends with are found by the run.
-/
import proofs.«116390_j18897856102400_2_alg».proof.Proof.KR1Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KR1RunC.lean ====
/-
  The attention body run at the last key/value block of a query block: it updates the three carried arrays as at any
  block and then stores the quotient of the weighted sum by the normaliser into the output window's buffer. The pieces
  the output buffer and each scratch buffer end with are found by the run.
-/
import proofs.«116390_j18897856102400_2_alg».proof.Proof.KR1Defs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KRegion1.lean ====
/-
  The attention pallas_call, at the contents `V` its region is entered with: what the three carried arrays and the output
  window's buffer hold after each grid point (by recursion on the point: the first key/value block of a query block starts
  from the reset carry, every later one from what the point before left; the output block is written at the last), the
  invariant that carries the scratch buffers from one point to the next, the pipeline's proof data and the body obligation
  at every point.
-/
import proofs.«116390_j18897856102400_2_alg».proof.Proof.KR1RunA
import proofs.«116390_j18897856102400_2_alg».proof.Proof.KR1RunB
import proofs.«116390_j18897856102400_2_alg».proof.Proof.KR1RunC
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- A staging buffer of the output window, and the scratch buffers, as views: contents are stated through them. -/
abbrev VO1_3 : View sig .tc .vmem S1024x1024 .f32 := (Memref.whole cc1_stg3_0 : Memref sig .tc .vmem S1024x1024 .f32).view
abbrev VS1_0 : View sig .tc .vmem S1024x1 .f32 := (scM1_0 : Memref sig .tc .vmem S1024x1 .f32).view
abbrev VS1_1 : View sig .tc .vmem S1024x1 .f32 := (scM1_1 : Memref sig .tc .vmem S1024x1 .f32).view
abbrev VS1_2 : View sig .tc .vmem S1024x1024 .f32 := (scM1_2 : Memref sig .tc .vmem S1024x1024 .f32).view

/-- The stores of this case into scratch buffer 0 cover it. -/
theorem scover1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S1024x1.size (by sl_kernel_rfl) y

/-- What scratch buffer 0 holds after the body in this case: its stored pieces read back. -/
def sout1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

/-- The stores of this case into scratch buffer 1 cover it. -/
theorem scover1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What scratch buffer 1 holds after the body in this case: its stored pieces read back. -/
def sout1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- The stores of this case into scratch buffer 2 cover it. -/
theorem scover1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) (y : S1024x1024.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1024.size (by sl_kernel_rfl) y

/-- What scratch buffer 2 holds after the body in this case: its stored pieces read back. -/
def sout1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

/-- The stores of this case into scratch buffer 0 cover it. -/
theorem scover1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S1024x1.size (by sl_kernel_rfl) y

/-- What scratch buffer 0 holds after the body in this case: its stored pieces read back. -/
def sout1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

/-- The stores of this case into scratch buffer 1 cover it. -/
theorem scover1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What scratch buffer 1 holds after the body in this case: its stored pieces read back. -/
def sout1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

/-- The stores of this case into scratch buffer 2 cover it. -/
theorem scover1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1024.size (by sl_kernel_rfl) y

/-- What scratch buffer 2 holds after the body in this case: its stored pieces read back. -/
def sout1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

/-- At the last key/value block the one store into the output window's buffer covers it. -/
theorem cover1_C_3 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y

/-- What the output window's buffer then holds: the stored pieces read back. -/
def out1_C_3 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) : Vec F S1024x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- The stores of this case into scratch buffer 0 cover it. -/
theorem scover1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What scratch buffer 0 holds after the body in this case: its stored pieces read back. -/
def sout1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- The stores of this case into scratch buffer 1 cover it. -/
theorem scover1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What scratch buffer 1 holds after the body in this case: its stored pieces read back. -/
def sout1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- The stores of this case into scratch buffer 2 cover it. -/
theorem scover1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y

/-- What scratch buffer 2 holds after the body in this case: its stored pieces read back. -/
def sout1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the buffers hold after each point -/

/-- After the body at position `n`: the output window's buffer (a placeholder where the window is idle: nothing reads it
    there) and the three carried arrays. -/
def outsAt1 (c : Dev nD) : (n : ℕ) → n < cfg1.N → Vec F S1024x1024 .f32 × Carry F
  | 0, hn => (VO1_3.read (Elt F) VO1_3.junk, (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩)))
  | n + 1, hn =>
    if h0 : (n + 1) % 4 = 0 then
      if h1 : (n + 1) % 4 = 3 then False.elim (by omega)
      else (VO1_3.read (Elt F) VO1_3.junk, (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2))
      else
        (VO1_3.read (Elt F) VO1_3.junk, (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2))

/-- At a first key/value block: the reset carry visited once. -/
theorem outsAt1_A (c : Dev nD) (t : Fin cfg1.N) (h0 : t.val % 4 = 0) (h1 : ¬t.val % 4 = 3) :
    outsAt1 V c t.val t.isLt = (VO1_3.read (Elt F) VO1_3.junk, (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))) := by
  obtain ⟨n, hn⟩ := t
  cases n with
  | zero => exact rfl
  | succ n => exact (dif_pos h0).trans ((dif_neg h1).trans rfl)

/-- At a middle key/value block: one more visit, over what the point before left. -/
theorem outsAt1_B (c : Dev nD) (t : Fin cfg1.N) (h0 : ¬t.val % 4 = 0) (h1 : ¬t.val % 4 = 3) :
    outsAt1 V c t.val t.isLt = (VO1_3.read (Elt F) VO1_3.junk, (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_neg h1).trans rfl)

/-- At a last key/value block: one more visit, and the output block. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the untouched scoped
    buffers, the three scratch buffers at what the point before left, and the generator register at some state. -/
def PhiS (c : Dev nD) : (n : ℕ) → n ≤ cfg1.N → sProp 𝕄
  | 0, _ => Pipeline.ΦA spec1 c
  | n + 1, hn => iprop(others1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(others1 (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The pipeline's proof data -/

/-- The arrays as the region finds them; after the body each input's buffer at its block, the output's at `outsAt1`'s
    first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.KRegion1Body.lean ====
/-
  The body obligation of the attention pallas_call at every grid point: which of the body's three cases a point is in is
  read off the point's position in its query block; the carried scratch buffers come out of the invariant at what the
  point before left (at anything before a query block's first visit, which resets them) and go back at this point's.
-/
import proofs.«116390_j18897856102400_2_alg».proof.Proof.KRegion1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0 sout1_A_1 sout1_A_2; (try dsimp only)
    by_cases hz : t.val = 0
    ·
      rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_open (F := F) c) $$ HΦ
      icases HΦ' with ⟨Hoth, HS0, HS1, HS2, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht]
  iintro ⟨Hoth, HS0, HS1, HS2, Hg⟩
  iapply (PhiA1_close (F := F) c)
  isplitl [Hoth]; · iexact Hoth
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ (Pipeline.ΦA spec1 c : sProp 𝕄) :=
  Phi_out1 V c _ (by rw [Fin.val_last]; have : cfg1.N = 16 := N_1; omega)

end Cert.Kernel.Hand

end
-- ==== Proof.KRun.lean ====
/-
  The run of the whole program: @main is the projection pallas_call followed by the attention pallas_call, with no host
  operation around them. The buffer contents at the three boundaries are named (launch; after the projections: the
  three projected arrays at what the write-backs leave, everything else as launched; after the attention: the result
  array at what its write-backs leave), each pallas_call is a segment entered from the boundary before it, and every weakly
  fair execution terminates in a memory whose unscoped buffers hold the last boundary's contents. Read at the argument
  arrays that is the frame; read at the result array it names the result.
-/
import proofs.«116390_j18897856102400_2_alg».proof.Proof.KRegion0
import proofs.«116390_j18897856102400_2_alg».proof.Proof.KRegion1Body
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the projection pallas_call: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the attention pallas_call: its arrays at what the pipeline leaves, every other buffer as it was entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### The argument arrays end as launched: the attention pallas_call does not stage them, the projection pallas_call only reads them -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0 m) c).arrAt_in 2 rfl _).trans (A_eq0 (V0 m) c 2))
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (V0 m) c).arrAt_in 3 rfl _).trans (A_eq0 (V0 m) c 3))
    _ = m ((c : Thread nD τ).loc main_arg3) := rfl

/-- The result array ends at what the attention pipeline's write-backs leave. -/
theorem W2_main_v1 (c : Dev nD) : W2 m c (Proc.devRef .tc main_v1) = (dat1 (V1 m) c).arrAt 3 cfg1.N :=
  W2_arr m c 3

/-- The attention pallas_call finds the projected arrays at what the projection pipeline's write-backs left. -/
theorem V1_main_v0_0 (c : Dev nD) : V1 m c main_v0_0 = (dat0 (V0 m) c).arrAt 4 cfg0.N := W1_arr m c 4
theorem V1_main_v0_1 (c : Dev nD) : V1 m c main_v0_1 = (dat0 (V0 m) c).arrAt 5 cfg0.N := W1_arr m c 5
theorem V1_main_v0_2 (c : Dev nD) : V1 m c main_v0_2 = (dat0 (V0 m) c).arrAt 6 cfg0.N := W1_arr m c 6

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The pallas_calls as segments -/

set_option backward.isDefEq.respectTransparency.types false in
/-- Pallas_call 0 as a segment of @main over the thread state "every unscoped buffer at the boundary's contents, the
    generator register at some state, nothing owed": its arrays are split out of the unscoped buffers on entry and put
    back at what the write-backs leave on exit; the generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment of @main over the thread state "every unscoped buffer at the boundary's contents, the
    generator register at some state, nothing owed": its arrays are split out of the unscoped buffers on entry and put
    back at what the write-backs leave on exit; the generator register goes into the region's invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m) c)
    unfold Pipeline.ΦA
    iintro ⟨Hp, -, Hr⟩
    isplitl [Hr]; · iexact Hr
    iexact Hp
  hout c := by
    refine (hout1 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, in a memory
    whose every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The run read at the result array and at the argument arrays. -/
theorem run_named : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.Kernel.Hand

end
-- ==== Proof.Frames.lean ====
/-
  The three frame claims. Both printings of the kernel program run to the end from any memory, nothing faulting, and leave
  their argument arrays as launched: the projection pallas_call only reads them and the attention pallas_call does not stage them.
  The reference is a line of host operations, each writing a buffer of its own.
-/
import proofs.«116390_j18897856102400_2_alg».proof.Defs
import proofs.«116390_j18897856102400_2_alg».proof.Proof.Run
import proofs.«116390_j18897856102400_2_alg».proof.Proof.KRun
import proofs.«116390_j18897856102400_2_alg».proof.Proof.Gen.ReferenceIdeal.Run
import proofs.«116390_j18897856102400_2_alg».proof.Proof.Gen.Kernel
import proofs.«116390_j18897856102400_2_alg».proof.Proof.Gen.KernelIdeal
import proofs.«116390_j18897856102400_2_alg».proof.Proof.Gen.ReferenceIdeal
import proofs.«116390_j18897856102400_2_alg».proof.Proof.Gen.Pre_finite_inputs

noncomputable section

namespace Cert.Proof.Frames

open Idealize.ShloMosaic Idealize.ShloMosaic.TcCoe Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.Region0Value.lean ====
/- What region 0 leaves in its three output arrays, entry by entry, at the exact reals: with x the 4096 x 1024
   activations and W1, W2, W3 the 1024 x 1024 weight matrices as the region finds them, the first output is
   (x·W1)(i, e) · (1/32), the second (x·W2)(i, e), the third (x·W3)(i, e), where (x·W)(i, e) = Σ_f x(i, f) · W(f, e).
   Each grid point writes one row block of 512 rows; the row blocks tile the arrays, and what a point writes is the
   product of its block of x with the whole weight matrix (roundings to the narrower format are the identity at the
   exact reals). -/
import proofs.«116390_j18897856102400_2_alg».proof.Proof.Region0
import proofs.«116390_j18897856102400_2_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-! ## The body's three products at an entry -/

/-- The first product's block at an entry: the row of the activations' block against the column of the weights,
    times the constant 1/32. -/
theorem pay1_apply (x0 : Vec Ideal S512x1024 .f32) (x1 : Vec Ideal S1024x1024 .f32) (p : Fin 512) (q : Fin 1024) :
    k0_pay1 x0 x1 (ix2 p q) = (∑ f : Fin 1024, x0 (ix2 p f) * x1 (ix2 f q)) * Ideal.ofBits .f32 0x3D000000#32 := by
  unfold k0_pay1
  rw [mulf_apply, broadcast_apply]
  congr 1
  exact matmul_plain_zero_apply _ _ x0 x1 p q

/-- The second product's block at an entry. -/
theorem pay2_apply (x0 : Vec Ideal S512x1024 .f32) (x2 : Vec Ideal S1024x1024 .f32) (p : Fin 512) (q : Fin 1024) :
    k0_pay2 x0 x2 (ix2 p q) = ∑ f : Fin 1024, x0 (ix2 p f) * x2 (ix2 f q) := by
  unfold k0_pay2
  exact matmul_plain_zero_apply _ _ x0 x2 p q

/-- The third product's block at an entry: at the exact reals the two roundings to the narrower format change
    nothing. -/
theorem pay3_apply (x0 : Vec Ideal S512x1024 .f32) (x3 : Vec Ideal S1024x1024 .f32) (p : Fin 512) (q : Fin 1024) :
    k0_pay3 x0 x3 (ix2 p q) = ∑ f : Fin 1024, x0 (ix2 p f) * x3 (ix2 f q) := by
  unfold k0_pay3
  rw [truncf_apply]
  exact matmul_plain_zero_apply _ none (truncf .bf16 x0 bitsLt_bf16_f32) (truncf .bf16 x3 bitsLt_bf16_f32) p q

/-- The product of a 4096 x 1024 array by a 1024 x 1024 matrix, entry by entry. -/
def matProd (X : S4096x1024.Idx → EReal) (W : S1024x1024.Idx → EReal) : S4096x1024.Idx → EReal :=
  fun i => ∑ f : Fin 1024, X (ix2 (i 0) f) * W (ix2 f (i 1))

theorem matProd_apply (X : S4096x1024.Idx → EReal) (W : S1024x1024.Idx → EReal) (i : Fin 4096) (e : Fin 1024) :
    matProd X W (ix2 i e) = ∑ f : Fin 1024, X (ix2 i f) * W (ix2 f e) := rfl

/-! ## The blocks as pieces of the arrays -/

/-- The index maps over the grid: the activations' block and each output's block at point `t` is row block `t`;
    each weight matrix's block is the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The activations' block at point `t` is rows `512 t … 512 t + 511` of the array. -/
theorem xblk_apply (c : Dev nD) (t : Fin cfg0.N) (p : Fin 512) (f : Fin 1024) (k : S4096x1024.Idx)
    (hk0 : (k 0).val = 512 * t.val + p.val) (hk1 : (k 1).val = f.val) :
    (iblk0 V c 0 t : Vec Ideal S512x1024 .f32) (ix2 p f) = (V c main_arg0 : S4096x1024.Idx → Elt Ideal .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 512 + 1 * p.val = (k 0).val; rw [e0, hk0]; omega
  | ⟨1, _⟩ => show win0_0.index t 1 * 1024 + 1 * f.val = (k 1).val; rw [e1, hk1]; omega
/-- Weight matrix 1's block at any point is the whole matrix. -/
theorem wblk1_apply (c : Dev nD) (t : Fin cfg0.N) (f q : Fin 1024) (k : S1024x1024.Idx)
    (hk0 : (k 0).val = f.val) (hk1 : (k 1).val = q.val) :
    (iblk0 V c 1 t : Vec Ideal S1024x1024 .f32) (ix2 f q) = (V c main_arg1 : S1024x1024.Idx → Elt Ideal .f32) k := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 1024 + 1 * f.val = (k 0).val; rw [e0, hk0]; omega
  | ⟨1, _⟩ => show win0_1.index t 1 * 1024 + 1 * q.val = (k 1).val; rw [e1, hk1]; omega
/-- Weight matrix 2's block at any point is the whole matrix. -/
theorem wblk2_apply (c : Dev nD) (t : Fin cfg0.N) (f q : Fin 1024) (k : S1024x1024.Idx)
    (hk0 : (k 0).val = f.val) (hk1 : (k 1).val = q.val) :
    (iblk0 V c 2 t : Vec Ideal S1024x1024 .f32) (ix2 f q) = (V c main_arg2 : S1024x1024.Idx → Elt Ideal .f32) k := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t 0 * 1024 + 1 * f.val = (k 0).val; rw [e0, hk0]; omega
  | ⟨1, _⟩ => show win0_2.index t 1 * 1024 + 1 * q.val = (k 1).val; rw [e1, hk1]; omega
/-- Weight matrix 3's block at any point is the whole matrix. -/
theorem wblk3_apply (c : Dev nD) (t : Fin cfg0.N) (f q : Fin 1024) (k : S1024x1024.Idx)
    (hk0 : (k 0).val = f.val) (hk1 : (k 1).val = q.val) :
    (iblk0 V c 3 t : Vec Ideal S1024x1024 .f32) (ix2 f q) = (V c main_arg3 : S1024x1024.Idx → Elt Ideal .f32) k := by
  obtain ⟨-, -, -, -, -, -, e0, e1, -⟩ := idx_facts0 t
  unfold iblk0
  rw [View.read_apply]
  show V c main_arg3 _ = V c main_arg3 _
  congr 1
  funext a
  apply Fin.ext
  match a with
  | ⟨0, _⟩ => show win0_3.index t 0 * 1024 + 1 * f.val = (k 0).val; rw [e0, hk0]; omega
  | ⟨1, _⟩ => show win0_3.index t 1 * 1024 + 1 * q.val = (k 1).val; rw [e1, hk1]; omega

/-! ## The first output: the scaled product with the first weight matrix -/

/-- The array the region leaves: entry (i, e) is the row i of the activations against the column e of the weights, times 1/32. -/
def Gq (c : Dev nD) : S4096x1024.Idx → Elt Ideal .f32 := fun i =>
  matProd (V c main_arg0) (V c main_arg1) i * Ideal.ofBits .f32 0x3D000000#32

/-- What point `t` writes back is block `t` of that array. -/
theorem flushed4_eq (c : Dev nD) (t : Fin cfg0.N) :
    (dat0 V c).flushed 4 t = ((cfg0.win 4).blk t).view.read (Elt Ideal) (Gq V c) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S1024x1024) hz2]
  obtain ⟨-, -, -, -, -, -, -, -, e0, e1, -⟩ := idx_facts0 t
  funext j
  obtain ⟨p, q, rfl⟩ : ∃ (p : Fin 512) (q : Fin 1024), j = ix2 p q := ⟨j 0, j 1, eq_ix2 j⟩
  show k0_pay1 (iblk0 V c 0 t) (iblk0 V c 1 t) (ix2 p q) = Gq V c (((cfg0.win 4).blk t).view.emb (ix2 p q))
  refine (pay1_apply _ _ p q).trans ?_
  unfold Gq matProd
  congr 1
  refine Finset.sum_congr rfl fun f _ => ?_
  congr 1
  · refine xblk_apply V c t p f _ ?_ rfl
    show win0_4.index t 0 * 512 + 1 * p.val = _
    rw [e0]; omega
  · refine wblk1_apply V c t f q _ rfl ?_
    show win0_4.index t 1 * 1024 + 1 * q.val = _
    rw [e1]; omega

/-- An index of the array is in point `t`'s block iff each coordinate is in the block's range on its axis. -/
theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]
  exact Iff.rfl

/-- Every index of the array is in the block of the point that owns its row: row `r` is in row block `r / 512`. -/
theorem cover4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  have ht : (i 0).val / 512 < cfg0.N := by rw [hN]; omega
  obtain ⟨-, -, -, -, -, -, -, -, e0, e1, -⟩ := idx_facts0 ⟨(i 0).val / 512, ht⟩
  refine ⟨⟨(i 0).val / 512, ht⟩, flush0_4 _, ?_⟩
  rw [mem_blk4]
  intro a
  match a with
  | ⟨0, _⟩ =>
    show win0_4.index ⟨(i 0).val / 512, ht⟩ 0 * 512 ≤ (i 0).val ∧ (i 0).val < win0_4.index ⟨(i 0).val / 512, ht⟩ 0 * 512 + 512
    rw [e0]; show (i 0).val / 512 * 512 ≤ (i 0).val ∧ (i 0).val < (i 0).val / 512 * 512 + 512; omega
  | ⟨1, _⟩ =>
    show win0_4.index ⟨(i 0).val / 512, ht⟩ 1 * 1024 ≤ (i 1).val ∧ (i 1).val < win0_4.index ⟨(i 0).val / 512, ht⟩ 1 * 1024 + 1024
    rw [e1]; omega

/-- The array after the region's last point. -/
theorem q_array (c : Dev nD) : (dat0 V c).arrAt 4 cfg0.N = Gq V c :=
  (dat0 V c).arrAt_eq_of_cover 4 (Gq V c) (fun t _ => flushed4_eq V c t) cover4

/-- Entry by entry. -/
theorem q_final (c : Dev nD) (i : Fin 4096) (e : Fin 1024) :
    (dat0 (F := Ideal) V c).arrAt 4 cfg0.N (ix2 i e)
      = matProd (V c main_arg0) (V c main_arg1) (ix2 i e) * Ideal.ofBits .f32 0x3D000000#32 := by
  rw [q_array]; rfl

/-! ## The second output: the product with the second weight matrix -/

/-- The array the region leaves: entry (i, e) is the row i of the activations against the column e of the weights. -/
def Gk (c : Dev nD) : S4096x1024.Idx → Elt Ideal .f32 := fun i =>
  matProd (V c main_arg0) (V c main_arg2) i

/-- What point `t` writes back is block `t` of that array. -/
theorem flushed5_eq (c : Dev nD) (t : Fin cfg0.N) :
    (dat0 V c).flushed 5 t = ((cfg0.win 5).blk t).view.read (Elt Ideal) (Gk V c) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S1024x1024) hz2]
  obtain ⟨-, -, -, -, -, -, -, -, -, -, e0, e1, -⟩ := idx_facts0 t
  funext j
  obtain ⟨p, q, rfl⟩ : ∃ (p : Fin 512) (q : Fin 1024), j = ix2 p q := ⟨j 0, j 1, eq_ix2 j⟩
  show k0_pay2 (iblk0 V c 0 t) (iblk0 V c 2 t) (ix2 p q) = Gk V c (((cfg0.win 5).blk t).view.emb (ix2 p q))
  refine (pay2_apply _ _ p q).trans ?_
  unfold Gk matProd
  refine Finset.sum_congr rfl fun f _ => ?_
  congr 1
  · refine xblk_apply V c t p f _ ?_ rfl
    show win0_5.index t 0 * 512 + 1 * p.val = _
    rw [e0]; omega
  · refine wblk2_apply V c t f q _ rfl ?_
    show win0_5.index t 1 * 1024 + 1 * q.val = _
    rw [e1]; omega

/-- An index of the array is in point `t`'s block iff each coordinate is in the block's range on its axis. -/
theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0_1).slice (win0_5.rect t)).set ↔ _
  rw [View.set_slice_whole, Rect.mem_set_unit]
  exact Iff.rfl

/-- Every index of the array is in the block of the point that owns its row: row `r` is in row block `r / 512`. -/
theorem cover5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  have ht : (i 0).val / 512 < cfg0.N := by rw [hN]; omega
  obtain ⟨-, -, -, -, -, -, -, -, -, -, e0, e1, -⟩ := idx_facts0 ⟨(i 0).val / 512, ht⟩
  refine ⟨⟨(i 0).val / 512, ht⟩, flush0_5 _, ?_⟩
  rw [mem_blk5]
  intro a
  match a with
  | ⟨0, _⟩ =>
    show win0_5.index ⟨(i 0).val / 512, ht⟩ 0 * 512 ≤ (i 0).val ∧ (i 0).val < win0_5.index ⟨(i 0).val / 512, ht⟩ 0 * 512 + 512
    rw [e0]; show (i 0).val / 512 * 512 ≤ (i 0).val ∧ (i 0).val < (i 0).val / 512 * 512 + 512; omega
  | ⟨1, _⟩ =>
    show win0_5.index ⟨(i 0).val / 512, ht⟩ 1 * 1024 ≤ (i 1).val ∧ (i 1).val < win0_5.index ⟨(i 0).val / 512, ht⟩ 1 * 1024 + 1024
    rw [e1]; omega

/-- The array after the region's last point. -/
theorem k_array (c : Dev nD) : (dat0 V c).arrAt 5 cfg0.N = Gk V c :=
  (dat0 V c).arrAt_eq_of_cover 5 (Gk V c) (fun t _ => flushed5_eq V c t) cover5

/-- Entry by entry. -/
theorem k_final (c : Dev nD) (i : Fin 4096) (e : Fin 1024) :
    (dat0 (F := Ideal) V c).arrAt 5 cfg0.N (ix2 i e)
      = matProd (V c main_arg0) (V c main_arg2) (ix2 i e) := by
  rw [k_array]; rfl

/-! ## The third output: the product with the third weight matrix -/

/-- The array the region leaves: entry (i, e) is the row i of the activations against the column e of the weights. -/
def Gv (c : Dev nD) : S4096x1024.Idx → Elt Ideal .bf16 := fun i =>
  matProd (V c main_arg0) (V c main_arg3) i

/-- What point `t` writes back is block `t` of that array. -/
theorem flushed6_eq (c : Dev nD) (t : Fin cfg0.N) :
    (dat0 V c).flushed 6 t = ((cfg0.win 6).blk t).view.read (Elt Ideal) (Gv V c) := by
  show (cfg0.win 6).cut (grid0.coords t) ((dat0 V c).after 6 t) = _
  rw [after0_6]
  unfold out0_6
  rw [View.canon_unit_zero hz2]
  simp only [View.ld_unit_zero (S := S512x1024) hz2, View.ld_unit_zero (S := S1024x1024) hz2]
  obtain ⟨-, -, -, -, -, -, -, -, -, -, -, -, e0, e1⟩ := idx_facts0 t
  funext j
  obtain ⟨p, q, rfl⟩ : ∃ (p : Fin 512) (q : Fin 1024), j = ix2 p q := ⟨j 0, j 1, eq_ix2 j⟩
  show k0_pay3 (iblk0 V c 0 t) (iblk0 V c 3 t) (ix2 p q) = Gv V c (((cfg0.win 6).blk t).view.emb (ix2 p q))
  refine (pay3_apply _ _ p q).trans ?_
  unfold Gv matProd
  refine Finset.sum_congr rfl fun f _ => ?_
  congr 1
  · refine xblk_apply V c t p f _ ?_ rfl
    show win0_6.index t 0 * 512 + 1 * p.val = _
    rw [e0]; omega
  · refine wblk3_apply V c t f q _ rfl ?_
    show win0_6.index t 1 * 1024 + 1 * q.val = _
    rw [e1]; omega

/-- An index of the array is in point `t`'s block iff each coordinate is in the block's range on its axis. -/
theorem mem_blk6 (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v0_2).slice (win0_6.rect t)).set ↔ _
  rw [View.set_slice_whole, Rect.mem_set_unit]
  exact Iff.rfl

/-- Every index of the array is in the block of the point that owns its row: row `r` is in row block `r / 512`. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 8 := N_0
  have ht : (i 0).val / 512 < cfg0.N := by rw [hN]; omega
  obtain ⟨-, -, -, -, -, -, -, -, -, -, -, -, e0, e1⟩ := idx_facts0 ⟨(i 0).val / 512, ht⟩
  refine ⟨⟨(i 0).val / 512, ht⟩, flush0_6 _, ?_⟩
  rw [mem_blk6]
  intro a
  match a with
  | ⟨0, _⟩ =>
    show win0_6.index ⟨(i 0).val / 512, ht⟩ 0 * 512 ≤ (i 0).val ∧ (i 0).val < win0_6.index ⟨(i 0).val / 512, ht⟩ 0 * 512 + 512
    rw [e0]; show (i 0).val / 512 * 512 ≤ (i 0).val ∧ (i 0).val < (i 0).val / 512 * 512 + 512; omega
  | ⟨1, _⟩ =>
    show win0_6.index ⟨(i 0).val / 512, ht⟩ 1 * 1024 ≤ (i 1).val ∧ (i 1).val < win0_6.index ⟨(i 0).val / 512, ht⟩ 1 * 1024 + 1024
    rw [e1]; omega

/-- The array after the region's last point. -/
theorem v_array (c : Dev nD) : (dat0 V c).arrAt 6 cfg0.N = Gv V c :=
  (dat0 V c).arrAt_eq_of_cover 6 (Gv V c) (fun t _ => flushed6_eq V c t) cover6

/-- Entry by entry. -/
theorem v_final (c : Dev nD) (i : Fin 4096) (e : Fin 1024) :
    (dat0 (F := Ideal) V c).arrAt 6 cfg0.N (ix2 i e)
      = matProd (V c main_arg0) (V c main_arg3) (ix2 i e) := by
  rw [v_array]; rfl

/-- info: 'Cert.KernelIdeal.Hand.q_final' depends on axioms: [propext, Classical.choice, Quot.sound] -/
#guard_msgs in #print axioms q_final
/-- info: 'Cert.KernelIdeal.Hand.k_final' depends on axioms: [propext, Classical.choice, Quot.sound] -/
#guard_msgs in #print axioms k_final
/-- info: 'Cert.KernelIdeal.Hand.v_final' depends on axioms: [propext, Classical.choice, Quot.sound] -/
#guard_msgs in #print axioms v_final

end Cert.KernelIdeal.Hand

end
-- ==== Proof.Region1Carry.lean ====
/-
  What the attention body leaves, as the pure functions of the carry: the pieces each case's run found are whole-buffer
  stores, so a scratch buffer after a point holds one step of the carry — from the reset carry at a query block's first
  key/value block, from what the point before left otherwise — and the output buffer, at the last key/value block, the
  quotient of the stepped carry. Unrolled over the four key/value blocks of a query block: four steps from the reset carry.
-/
import proofs.«116390_j18897856102400_2_alg».proof.Proof.Region1
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however they are spelt. -/
theorem hz : (![0, 0] : Fin 2 → ℕ) = fun _ => 0 := by funext a; fin_cases a <;> rfl

theorem sout1_A_0_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) :
    sout1_A_0 c i arg2 harg2 arg3 harg3 arg4 harg4 arg5 harg5 arg6 harg6 arg7 harg7 arg8 harg8 hc0 hc1 x0 x1 x2 = (carryStep x0 x1 x2 carry0).1 := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem sout1_A_1_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) :
    sout1_A_1 c i arg2 harg2 arg3 harg3 arg4 harg4 arg5 harg5 arg6 harg6 arg7 harg7 arg8 harg8 hc0 hc1 x0 x1 x2 = (carryStep x0 x1 x2 carry0).2.1 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem sout1_A_2_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 : Vec F S1024x1024 .f32) (x2 : Vec F S1024x1024 .bf16) :
    sout1_A_2 c i arg2 harg2 arg3 harg3 arg4 harg4 arg5 harg5 arg6 harg6 arg7 harg7 arg8 harg8 hc0 hc1 x0 x1 x2 = (carryStep x0 x1 x2 carry0).2.2 := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem sout1_B_0_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) :
    sout1_B_0 c i arg2 harg2 arg3 harg3 arg4 harg4 arg5 harg5 arg6 harg6 arg7 harg7 arg8 harg8 hc0 hc1 x0 x1 x2 xs0 xs1 xs2 = (carryStep x0 x1 x2 (xs0, xs1, xs2)).1 := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem sout1_B_1_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) :
    sout1_B_1 c i arg2 harg2 arg3 harg3 arg4 harg4 arg5 harg5 arg6 harg6 arg7 harg7 arg8 harg8 hc0 hc1 x0 x1 x2 xs0 xs1 xs2 = (carryStep x0 x1 x2 (xs0, xs1, xs2)).2.1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem sout1_B_2_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 : Vec F S1024x1024 .f32) (x2 : Vec F S1024x1024 .bf16) (xs0 xs1 : Vec F S1024x1 .f32) (xs2 : Vec F S1024x1024 .f32) :
    sout1_B_2 c i arg2 harg2 arg3 harg3 arg4 harg4 arg5 harg5 arg6 harg6 arg7 harg7 arg8 harg8 hc0 hc1 x0 x1 x2 xs0 xs1 xs2 = (carryStep x0 x1 x2 (xs0, xs1, xs2)).2.2 := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem sout1_C_0_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) :
    sout1_C_0 c i arg2 harg2 arg3 harg3 arg4 harg4 arg5 harg5 arg6 harg6 arg7 harg7 arg8 harg8 hc0 hc1 x0 x1 x2 xs0 xs1 xs2 = (carryStep x0 x1 x2 (xs0, xs1, xs2)).1 := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem sout1_C_1_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) :
    sout1_C_1 c i arg2 harg2 arg3 harg3 arg4 harg4 arg5 harg5 arg6 harg6 arg7 harg7 arg8 harg8 hc0 hc1 x0 x1 x2 xs0 xs1 xs2 = (carryStep x0 x1 x2 (xs0, xs1, xs2)).2.1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem sout1_C_2_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) :
    sout1_C_2 c i arg2 harg2 arg3 harg3 arg4 harg4 arg5 harg5 arg6 harg6 arg7 harg7 arg8 harg8 hc0 hc1 x0 x1 x2 xs0 xs1 xs2 = (carryStep x0 x1 x2 (xs0, xs1, xs2)).2.2 := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

theorem out1_C_3_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 : Vec F S1024x1024 .f32) (x2 : Vec F S1024x1024 .bf16) (xs0 xs1 : Vec F S1024x1 .f32) (xs2 : Vec F S1024x1024 .f32) :
    out1_C_3 c i arg2 harg2 arg3 harg3 arg4 harg4 arg5 harg5 arg6 harg6 arg7 harg7 arg8 harg8 hc0 hc1 x0 x1 x2 xs0 xs1 xs2 = carryOut (carryStep x0 x1 x2 (xs0, xs1, xs2)) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero hz]
  simp only [View.readCov_unit_zero (S := S1024x1024) _ hz, View.readCov_unit_zero (S := S1024x1) _ hz, View.readAt_eq_ld, harg2.read_unread, harg3.read_unread, harg4.read_unread, harg6.read_unread, harg7.read_unread, harg8.read_unread,
    View.ld_unit_zero (S := S1024x1024) hz, View.ld_unit_zero (S := S1024x1) hz]
  rfl

variable (V : (c : Dev nD) → (b : Ref sig .tc) → Buf (Elt F) ((c : Thread nD τ).loc b))

/-- The grid point of query block `qi` and key/value block `kj`. -/
def pt (qi kj : Fin 4) : Fin cfg1.N := ⟨4 * qi.val + kj.val, by rw [show cfg1.N = 16 from N_1]; omega⟩

theorem outsAt1_val (c : Dev nD) (n n' : ℕ) (h : n < cfg1.N) (h' : n' < cfg1.N) (e : n = n') :
    outsAt1 V c n h = outsAt1 V c n' h' := by subst e; rfl

/-- At a query block's first key/value block the carry is one step from the reset carry. -/
theorem carry_first (c : Dev nD) (t : Fin cfg1.N) (h0 : t.val % 4 = 0) :
    (outsAt1 V c t.val t.isLt).2 = carryStep (iblk1 V c 0 t) (iblk1 V c 1 t) (iblk1 V c 2 t) carry0 := by
  rw [outsAt1_A V c t h0 (by omega)]
  dsimp only
  rw [sout1_A_0_eq, sout1_A_1_eq, sout1_A_2_eq]

/-- At any later one, one step from what the point before left. -/
theorem carry_next (c : Dev nD) (t : Fin cfg1.N) (h0 : ¬t.val % 4 = 0) :
    (outsAt1 V c t.val t.isLt).2 = carryStep (iblk1 V c 0 t) (iblk1 V c 1 t) (iblk1 V c 2 t) (outsAt1 V c (t.val - 1) (Nat.lt_of_le_of_lt (Nat.sub_le _ _) t.isLt)).2 := by
  by_cases h1 : t.val % 4 = 3
  · rw [outsAt1_C V c t h0 h1]
    dsimp only
    rw [sout1_C_0_eq, sout1_C_1_eq, sout1_C_2_eq]
  · rw [outsAt1_B V c t h0 h1]
    dsimp only
    rw [sout1_B_0_eq, sout1_B_1_eq, sout1_B_2_eq]

/-- At the last key/value block the output buffer holds the quotient of the carry just stepped. -/
theorem out_last (c : Dev nD) (t : Fin cfg1.N) (h1 : t.val % 4 = 3) :
    (outsAt1 V c t.val t.isLt).1 = carryOut (outsAt1 V c t.val t.isLt).2 := by
  rw [outsAt1_C V c t (by omega) h1]
  dsimp only
  rw [out1_C_3_eq, sout1_C_0_eq, sout1_C_1_eq, sout1_C_2_eq]

/-- After a query block's four key/value blocks: four steps from the reset carry. -/
theorem carry_block (c : Dev nD) (qi : Fin 4) :
    (outsAt1 V c (pt qi 3).val (pt qi 3).isLt).2
      = carryStep (iblk1 V c 0 (pt qi 3)) (iblk1 V c 1 (pt qi 3)) (iblk1 V c 2 (pt qi 3)) (carryStep (iblk1 V c 0 (pt qi 2)) (iblk1 V c 1 (pt qi 2)) (iblk1 V c 2 (pt qi 2)) (carryStep (iblk1 V c 0 (pt qi 1)) (iblk1 V c 1 (pt qi 1)) (iblk1 V c 2 (pt qi 1)) (carryStep (iblk1 V c 0 (pt qi 0)) (iblk1 V c 1 (pt qi 0)) (iblk1 V c 2 (pt qi 0)) carry0))) := by
  rw [carry_next V c (pt qi 3) (by show ¬(4 * qi.val + 3) % 4 = 0; omega),
    outsAt1_val V c ((pt qi 3).val - 1) (pt qi 2).val _ (pt qi 2).isLt (by show 4 * qi.val + 3 - 1 = 4 * qi.val + 2; omega),
    carry_next V c (pt qi 2) (by show ¬(4 * qi.val + 2) % 4 = 0; omega),
    outsAt1_val V c ((pt qi 2).val - 1) (pt qi 1).val _ (pt qi 1).isLt (by show 4 * qi.val + 2 - 1 = 4 * qi.val + 1; omega),
    carry_next V c (pt qi 1) (by show ¬(4 * qi.val + 1) % 4 = 0; omega),
    outsAt1_val V c ((pt qi 1).val - 1) (pt qi 0).val _ (pt qi 0).isLt (by show 4 * qi.val + 1 - 1 = 4 * qi.val + 0; omega),
    carry_first V c (pt qi 0) (by show (4 * qi.val + 0) % 4 = 0; omega)]

end Cert.KernelIdeal.Hand

end
-- ==== Proof.Region1Blocks.lean ====
/-
  The attention pallas_call's blocks and its output array, index by index.

  The grid's point t has query block t / 4 and key/value block t % 4. The query window's block at t is rows
  1024·(t/4) … 1024·(t/4) + 1023 of the query array, the key and value windows' blocks are rows 1024·(t%4) … of theirs,
  and the output window's block is rows 1024·(t/4) … of the output array, written back at the last key/value block
  only (t % 4 = 3). So entry (1024·q + r, d) of the output array ends at entry (r, d) of what query block q's last
  point wrote: the weighted sum over the normaliser of the carry that point leaves.
-/
import proofs.«116390_j18897856102400_2_alg».proof.Proof.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The printed index maps, decided over the grid: the query and output windows' block row is t / 4, the key and value
    windows' is t % 4, and every block column is 0. -/
theorem idx1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val % 4 ∧ win1_2.index t (1 : Fin 2) = 0
    ∧ win1_3.index t (0 : Fin 2) = t.val / 4 ∧ win1_3.index t (1 : Fin 2) = 0 :=
  (by decide +kernel : ∀ t : Fin grid1.N, _)

/-- The query block at a point of query block `qi`: rows 1024·qi … of the query array. -/
theorem qblk_at (c : Dev nD) (t : Fin cfg1.N) (qi kj : Fin 4) (ht : t.val = 4 * qi.val + kj.val) (r e : Fin 1024) :
    iblk1 V c 0 t (ix2 r e) = V c main_v0_0 (ix2 (finProdFinEquiv (qi, r)) e) := by
  obtain ⟨h0, h1, -⟩ := idx1 t
  unfold iblk1
  rw [View.read_apply]
  show V c main_v0_0 _ = V c main_v0_0 _
  congr 1
  funext a
  apply Fin.ext
  match a with
  | ⟨0, _⟩ =>
    show win1_0.index t (0 : Fin 2) * 1024 + 1 * r.val = r.val + 1024 * qi.val
    rw [h0]; have := qi.isLt; have := kj.isLt; omega
  | ⟨1, _⟩ =>
    show win1_0.index t (1 : Fin 2) * 1024 + 1 * e.val = e.val
    rw [h1]; omega

/-- The key block at a point of key/value block `kj`: rows 1024·kj … of the key array. -/
theorem kblk_at (c : Dev nD) (t : Fin cfg1.N) (qi kj : Fin 4) (ht : t.val = 4 * qi.val + kj.val) (cc e : Fin 1024) :
    iblk1 V c 1 t (ix2 cc e) = V c main_v0_1 (ix2 (finProdFinEquiv (kj, cc)) e) := by
  obtain ⟨-, -, h0, h1, -⟩ := idx1 t
  unfold iblk1
  rw [View.read_apply]
  show V c main_v0_1 _ = V c main_v0_1 _
  congr 1
  funext a
  apply Fin.ext
  match a with
  | ⟨0, _⟩ =>
    show win1_1.index t (0 : Fin 2) * 1024 + 1 * cc.val = cc.val + 1024 * kj.val
    rw [h0]; have := qi.isLt; have := kj.isLt; omega
  | ⟨1, _⟩ =>
    show win1_1.index t (1 : Fin 2) * 1024 + 1 * e.val = e.val
    rw [h1]; omega

/-- The value block at a point of key/value block `kj`: rows 1024·kj … of the value array. -/
theorem vblk_at (c : Dev nD) (t : Fin cfg1.N) (qi kj : Fin 4) (ht : t.val = 4 * qi.val + kj.val) (cc d : Fin 1024) :
    iblk1 V c 2 t (ix2 cc d) = V c main_v0_2 (ix2 (finProdFinEquiv (kj, cc)) d) := by
  obtain ⟨-, -, -, -, h0, h1, -⟩ := idx1 t
  unfold iblk1
  rw [View.read_apply]
  show V c main_v0_2 _ = V c main_v0_2 _
  congr 1
  funext a
  apply Fin.ext
  match a with
  | ⟨0, _⟩ =>
    show win1_2.index t (0 : Fin 2) * 1024 + 1 * cc.val = cc.val + 1024 * kj.val
    rw [h0]; have := qi.isLt; have := kj.isLt; omega
  | ⟨1, _⟩ =>
    show win1_2.index t (1 : Fin 2) * 1024 + 1 * d.val = d.val
    rw [h1]; omega

/-! ## The output array -/

theorem outG_lt (j : S4096x1024.Idx) : 4 * ((j 0).val / 1024) + 3 < cfg1.N := by
  have h : (j 0).val < 4096 := (j 0).isLt
  rw [show cfg1.N = 16 from N_1]
  omega

/-- What the output array ends holding: at row 1024·q + r, entry (r, ·) of the weighted sum over the normaliser of the
    carry that query block q's last point (4·q + 3) leaves. -/
def outG (c : Dev nD) : S4096x1024.Idx → Elt F .f32 := fun j =>
  carryOut (outsAt1 V c (4 * ((j 0).val / 1024) + 3) (outG_lt j)).2
    (ix2 (⟨(j 0).val % 1024, Nat.mod_lt _ (by decide)⟩ : Fin 1024) (⟨(j 1).val, (j 1).isLt⟩ : Fin 1024))

/-- `outG` at an index whose row is 1024·(t/4) + r, for a last point `t`. -/
theorem outG_eq (c : Dev nD) (t : Fin cfg1.N) (h1 : t.val % 4 = 3) (j : S4096x1024.Idx) (r d : Fin 1024)
    (h0 : (j 0).val = t.val / 4 * 1024 + r.val) (hd : (j 1).val = d.val) :
    outG V c j = carryOut (outsAt1 V c t.val t.isLt).2 (ix2 r d) := by
  have key : ∀ (n : ℕ) (hn : n < cfg1.N) (a b : Fin 1024), n = t.val → a = r → b = d →
      carryOut (outsAt1 V c n hn).2 (ix2 a b) = carryOut (outsAt1 V c t.val t.isLt).2 (ix2 r d) := by
    intro n hn a b e ea eb
    subst e ea eb
    rfl
  have hr := r.isLt
  exact key _ _ _ _ (by omega) (Fin.ext (by show (j 0).val % 1024 = r.val; omega)) (Fin.ext hd)

/-- What a last point writes back is its block of `outG`, given that the output window's buffer there holds the
    weighted sum over the normaliser of the carry the point leaves. -/
theorem flushed1_3_eq (c : Dev nD)
    (hout : ∀ t : Fin cfg1.N, t.val % 4 = 3 → (outsAt1 V c t.val t.isLt).1 = carryOut (outsAt1 V c t.val t.isLt).2)
    (t : Fin cfg1.N) (hf : (cfg1.win 3).flush t = true) :
    (dat1 V c).flushed 3 t = ((cfg1.win 3).blk t).view.read (Elt F) (outG V c) := by
  have h1 : t.val % 4 = 3 := (flush1_3 t).mp hf
  obtain ⟨-, -, -, -, -, -, i0, i1⟩ := idx1 t
  show (cfg1.win 3).cut (grid1.coords t) ((dat1 V c).after 3 t) = _
  rw [after1_3, hout t h1]
  funext y
  obtain ⟨r, d, rfl⟩ : ∃ r d : Fin 1024, y = ix2 r d := ⟨y 0, y 1, eq_ix2 y⟩
  rw [View.read_apply]
  refine Eq.trans ?_ (outG_eq V c t h1 _ r d ?_ ?_).symm
  · rfl
  · show win1_3.index t (0 : Fin 2) * 1024 + 1 * r.val = t.val / 4 * 1024 + r.val
    rw [i0]; omega
  · show win1_3.index t (1 : Fin 2) * 1024 + 1 * d.val = d.val
    rw [i1]; omega

/-- An index of the output array is in point `t`'s block iff each coordinate is in the block's range on its axis. -/
theorem mem_blk1_3 (t : Fin cfg1.N) (i : S4096x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v1).slice (win1_3.rect t)).set ↔ _
  rw [View.set_slice_whole, Rect.mem_set_unit]
  exact Iff.rfl

/-- The output array after the run, at row 1024·qi + r: entry (r, d) of the block query block `qi`'s last point wrote. -/
theorem attn_final_of (c : Dev nD)
    (hout : ∀ t : Fin cfg1.N, t.val % 4 = 3 → (outsAt1 V c t.val t.isLt).1 = carryOut (outsAt1 V c t.val t.isLt).2)
    (t : Fin cfg1.N) (qi : Fin 4) (ht : t.val = 4 * qi.val + 3) (r d : Fin 1024) :
    (dat1 V c).arrAt 3 cfg1.N (ix2 (finProdFinEquiv (qi, r)) d)
      = carryOut (outsAt1 V c t.val t.isLt).2 (ix2 r d) := by
  have h1 : t.val % 4 = 3 := by omega
  have hq := qi.isLt
  have hr := r.isLt
  have hd := d.isLt
  obtain ⟨-, -, -, -, -, -, i0, i1⟩ := idx1 t
  refine ((dat1 V c).arrAt_apply_of_mem 3 (outG V c) (flushed1_3_eq V c hout) cfg1.N t _ t.isLt
    ((flush1_3 t).mpr h1) ?_).trans ?_
  · rw [mem_blk1_3]
    intro a
    match a with
    | ⟨0, _⟩ =>
      show win1_3.index t (0 : Fin 2) * 1024 ≤ r.val + 1024 * qi.val
        ∧ r.val + 1024 * qi.val < win1_3.index t (0 : Fin 2) * 1024 + 1024
      rw [i0]; omega
    | ⟨1, _⟩ =>
      show win1_3.index t (1 : Fin 2) * 1024 ≤ d.val ∧ d.val < win1_3.index t (1 : Fin 2) * 1024 + 1024
      rw [i1]; omega
  · exact outG_eq V c t h1 _ r d (by show r.val + 1024 * qi.val = t.val / 4 * 1024 + r.val; omega) rfl

end Cert.KernelIdeal.Hand

end
-- ==== Proof.Region1Final.lean ====
/-
  The attention pallas_call read off: each input block at a point of the grid as rows of its array, and the output
  array after the run as, row block by row block, the weighted sum over the normaliser of the carry the row block's last
  point leaves.
-/
import proofs.«116390_j18897856102400_2_alg».proof.Proof.Region1Carry
import proofs.«116390_j18897856102400_2_alg».proof.Proof.Region1Blocks
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The query block at point (qi, kj): rows 1024·qi … of the query array. -/
theorem qblk_apply (c : Dev nD) (qi kj : Fin 4) (r e : Fin 1024) :
    iblk1 V c 0 (pt qi kj) (ix2 r e) = V c main_v0_0 (ix2 (finProdFinEquiv (qi, r)) e) :=
  qblk_at V c (pt qi kj) qi kj rfl r e

/-- The key block at point (qi, kj): rows 1024·kj … of the key array. -/
theorem kblk_apply (c : Dev nD) (qi kj : Fin 4) (cc e : Fin 1024) :
    iblk1 V c 1 (pt qi kj) (ix2 cc e) = V c main_v0_1 (ix2 (finProdFinEquiv (kj, cc)) e) :=
  kblk_at V c (pt qi kj) qi kj rfl cc e

/-- The value block at point (qi, kj): rows 1024·kj … of the value array. -/
theorem vblk_apply (c : Dev nD) (qi kj : Fin 4) (cc d : Fin 1024) :
    iblk1 V c 2 (pt qi kj) (ix2 cc d) = V c main_v0_2 (ix2 (finProdFinEquiv (kj, cc)) d) :=
  vblk_at V c (pt qi kj) qi kj rfl cc d

/-- The output array after the run, at row 1024·qi + r and column d: entry (r, d) of the weighted sum over the
    normaliser of the carry that query block qi's last point leaves. -/
theorem attn_final (c : Dev nD) (qi : Fin 4) (r d : Fin 1024) :
    (dat1 V c).arrAt 3 cfg1.N (ix2 (finProdFinEquiv (qi, r)) d)
      = carryOut (outsAt1 V c (pt qi 3).val (pt qi 3).isLt).2 (ix2 r d) :=
  attn_final_of V c (out_last V c) (pt qi 3) qi rfl r d

end Cert.KernelIdeal.Hand

end
-- ==== Proof.Spec.lean ====
/-
  The specification, over the reals. With every input entry a real number, write Q₀ = x·W_q, K = x·W_k, V = x·W_v
  (each entry a sum of 1024 products). The attention score of query row i against key row k is
  s(i,k) = (Σ_e Q₀(i,e)·K(k,e)) / 32, and the result at (i,d) is the softmax average of column d of V under the
  scores of row i:   out(i,d) = (Σ_k e^{s(i,k)}·V(k,d)) / (Σ_k e^{s(i,k)}).
  A softmax average does not change when one number is subtracted from every score, which is why both a
  max-subtracted softmax and a running-maximum ("online") softmax compute it.
  Also here: one row of the online recurrence on the extended reals, the form in which the kernel's carried arrays
  are read entry by entry (running maximum, normaliser, one column of the weighted sum).
-/
import Idealize.ShloMosaic.PureOps.Ideal
import Idealize.ShloMosaic.Lib.ValueIdx

noncomputable section

namespace Cert.Attn

open Idealize.ShloMosaic Idealize.ShloMosaic.ValueIdx

/-- The shapes of x (and of the result) and of a weight matrix. -/
abbrev SX : Shape := ⟨2, ![4096, 1024]⟩
abbrev SW : Shape := ⟨2, ![1024, 1024]⟩

/-- The softmax average of `v` under the scores `s`: Σ e^{s k}·v k / Σ e^{s k}. -/
def softAvg {ι : Type} [Fintype ι] (s v : ι → ℝ) : ℝ := (∑ k, Real.exp (s k) * v k) / (∑ k, Real.exp (s k))

/-- A projection x·W at (i, e). -/
def projR (x : SX.Idx → ℝ) (w : SW.Idx → ℝ) (i : Fin 4096) (e : Fin 1024) : ℝ :=
  ∑ f : Fin 1024, x (ix2 i f) * w (ix2 f e)

/-- The scaled score of query row `i` against key row `k`. -/
def scoreR (x : SX.Idx → ℝ) (wq wk : SW.Idx → ℝ) (i k : Fin 4096) : ℝ :=
  (∑ e : Fin 1024, projR x wq i e * projR x wk k e) * (1 / 32)

/-- The attention output at (i, d). -/
def outR (x : SX.Idx → ℝ) (wq wk wv : SW.Idx → ℝ) (i : Fin 4096) (d : Fin 1024) : ℝ :=
  softAvg (fun k : Fin 4096 => scoreR x wq wk i k) (fun k => projR x wv k d)

/-- One row of the online recurrence, on the extended reals: from (m, l, a) — running maximum, normaliser, one
    column's weighted sum — and one block's scores `sc` and value column `vc`, with `bm` the block's row maximum. -/
def rowStep (bm : EReal) (sc vc : Fin 1024 → EReal) (st : EReal × EReal × EReal) : EReal × EReal × EReal :=
  (max st.1 bm,
   Ideal.exp (st.1 - max st.1 bm) * st.2.1 + ∑ c : Fin 1024, Ideal.exp (sc c - max st.1 bm),
   Ideal.exp (st.1 - max st.1 bm) * st.2.2 + ∑ c : Fin 1024, Ideal.exp (sc c - max st.1 bm) * vc c)

/-- The recurrence's start: maximum −∞, normaliser 0, weighted sum 0. -/
def row0 : EReal × EReal × EReal := (⊥, 0, 0)

end Cert.Attn

end
-- ==== Proof.Online.lean ====
/-
  The online softmax, as mathematics. One row of the recurrence carries (m, l, a): a running maximum, a normaliser
  and one column of the weighted sum. Visiting a block of scores s_c with values v_c and block maximum b replaces it by
  m' = max m b,  l' = e^{m − m'}·l + Σ_c e^{s_c − m'},  a' = e^{m − m'}·a + Σ_c e^{s_c − m'}·v_c.
  Invariant: l = e^{−m}·L and a = e^{−m}·A, where L = Σ e^{s} and A = Σ e^{s}·v over the entries visited so far; it
  is kept because e^{m − m'}·e^{−m} = e^{−m'} and e^{s − m'} = e^{−m'}·e^{s}. The number b plays no part in it, so it
  need not be the true maximum. At the end a / l = A / L, the common factor e^{−m} ≠ 0 cancelling; that is the softmax
  average. The first step starts from (−∞, 0, 0): max(−∞, b) = b, e^{−∞ − b} = 0, and the state becomes real.
  Also: a softmax average is unchanged by re-indexing along a bijection, in particular by reading 4096 = 4·1024
  entries in four blocks of 1024.
-/
import proofs.«116390_j18897856102400_2_alg».proof.Proof.Spec

noncomputable section

namespace Cert.Attn

open Idealize.ShloMosaic

namespace Online

/-- The coercion ℝ → EReal commutes with finite sums. -/
theorem coe_sum' {ι : Type} (t : Finset ι) (f : ι → ℝ) :
    ((∑ c ∈ t, f c : ℝ) : EReal) = ∑ c ∈ t, ((f c : ℝ) : EReal) := by
  classical
  induction t using Finset.induction_on with
  | empty => simp
  | insert a t ha ih => rw [Finset.sum_insert ha, Finset.sum_insert ha, EReal.coe_add, ih]

/-- The coercion ℝ → EReal commutes with max. -/
theorem coe_max' (a b : ℝ) : ((max a b : ℝ) : EReal) = max (a : EReal) (b : EReal) :=
  EReal.coe_strictMono.monotone.map_max

end Online

/-- The recurrence over the reals. -/
def rowStepR (bm : ℝ) (sc vc : Fin 1024 → ℝ) (st : ℝ × ℝ × ℝ) : ℝ × ℝ × ℝ :=
  (max st.1 bm,
   Real.exp (st.1 - max st.1 bm) * st.2.1 + ∑ c : Fin 1024, Real.exp (sc c - max st.1 bm),
   Real.exp (st.1 - max st.1 bm) * st.2.2 + ∑ c : Fin 1024, Real.exp (sc c - max st.1 bm) * vc c)

/-- A real state read on the extended reals. -/
def coe3 (st : ℝ × ℝ × ℝ) : EReal × EReal × EReal := ((st.1 : EReal), (st.2.1 : EReal), (st.2.2 : EReal))

/-- On real data the extended-real recurrence is the real one. -/
theorem rowStep_coe (bm : ℝ) (sc vc : Fin 1024 → ℝ) (st : ℝ × ℝ × ℝ) :
    rowStep (bm : EReal) (fun c => (sc c : EReal)) (fun c => (vc c : EReal)) (coe3 st)
      = coe3 (rowStepR bm sc vc st) := by
  obtain ⟨m, l, a⟩ := st
  simp only [rowStep, rowStepR, coe3, ← Online.coe_max', ← EReal.coe_sub, Ideal.exp_coe, ← EReal.coe_mul,
    ← Online.coe_sum', ← EReal.coe_add]

/-- The first step, from (−∞, 0, 0). -/
theorem rowStep_row0 (bm : ℝ) (sc vc : Fin 1024 → ℝ) :
    rowStep (bm : EReal) (fun c => (sc c : EReal)) (fun c => (vc c : EReal)) row0
      = coe3 (bm, Real.exp (-bm) * (∑ c : Fin 1024, Real.exp (sc c)),
              Real.exp (-bm) * (∑ c : Fin 1024, Real.exp (sc c) * vc c)) := by
  have hmax : max (⊥ : EReal) (bm : EReal) = (bm : EReal) := max_eq_right bot_le
  have h2 : ∀ c, Real.exp (sc c - bm) = Real.exp (-bm) * Real.exp (sc c) := by
    intro c; rw [← Real.exp_add]; congr 1; ring
  simp only [rowStep, row0, coe3, hmax, EReal.bot_sub, Ideal.exp_bot, mul_zero, zero_add, ← EReal.coe_sub,
    Ideal.exp_coe, ← EReal.coe_mul, ← Online.coe_sum', h2, ← Finset.mul_sum, mul_assoc]

/-- The invariant is kept by one real step. -/
theorem rowStepR_inv (bm : ℝ) (sc vc : Fin 1024 → ℝ) (m L A : ℝ) :
    rowStepR bm sc vc (m, Real.exp (-m) * L, Real.exp (-m) * A)
      = (max m bm, Real.exp (-(max m bm)) * (L + ∑ c : Fin 1024, Real.exp (sc c)),
         Real.exp (-(max m bm)) * (A + ∑ c : Fin 1024, Real.exp (sc c) * vc c)) := by
  have h1 : Real.exp (m - max m bm) * Real.exp (-m) = Real.exp (-(max m bm)) := by
    rw [← Real.exp_add]; congr 1; ring
  have h2 : ∀ c, Real.exp (sc c - max m bm) = Real.exp (-(max m bm)) * Real.exp (sc c) := by
    intro c; rw [← Real.exp_add]; congr 1; ring
  simp only [rowStepR, h2, mul_assoc, ← Finset.mul_sum, ← h1, mul_add]

/-- One extended-real step on a state that satisfies the invariant. -/
theorem rowStep_inv (bm : ℝ) (sc vc : Fin 1024 → ℝ) (m L A : ℝ) :
    rowStep (bm : EReal) (fun c => (sc c : EReal)) (fun c => (vc c : EReal))
        (coe3 (m, Real.exp (-m) * L, Real.exp (-m) * A))
      = coe3 (max m bm, Real.exp (-(max m bm)) * (L + ∑ c : Fin 1024, Real.exp (sc c)),
         Real.exp (-(max m bm)) * (A + ∑ c : Fin 1024, Real.exp (sc c) * vc c)) := by
  rw [rowStep_coe, rowStepR_inv]

/-- The final division: the common factor cancels. -/
theorem div_inv (m L A : ℝ) (hL : 0 < L) :
    Ideal.div ((Real.exp (-m) * A : ℝ) : EReal) ((Real.exp (-m) * L : ℝ) : EReal) = ((A / L : ℝ) : EReal) := by
  have he : Real.exp (-m) ≠ 0 := (Real.exp_pos _).ne'
  have hne : Real.exp (-m) * L ≠ 0 := mul_ne_zero he hL.ne'
  rw [Ideal.div_coe hne, ← EReal.coe_mul]
  congr 1
  field_simp

/-- Four blocks of the online recurrence, then the division, give the softmax average over all 4·1024 entries. -/
theorem online_row (s v : Fin 4 → Fin 1024 → ℝ) (bm : Fin 4 → ℝ) :
    let st := rowStep (bm 3) (fun c => ((s 3 c : ℝ) : EReal)) (fun c => (v 3 c : EReal))
               (rowStep (bm 2) (fun c => (s 2 c : EReal)) (fun c => (v 2 c : EReal))
                (rowStep (bm 1) (fun c => (s 1 c : EReal)) (fun c => (v 1 c : EReal))
                 (rowStep (bm 0) (fun c => (s 0 c : EReal)) (fun c => (v 0 c : EReal)) row0)))
    Ideal.div st.2.2 st.2.1
      = ((softAvg (fun p : Fin 4 × Fin 1024 => s p.1 p.2) (fun p => v p.1 p.2) : ℝ) : EReal) := by
  intro st
  have hst : st = coe3 (max (max (max (bm 0) (bm 1)) (bm 2)) (bm 3),
      Real.exp (-(max (max (max (bm 0) (bm 1)) (bm 2)) (bm 3))) *
        ((((∑ c : Fin 1024, Real.exp (s 0 c)) + ∑ c : Fin 1024, Real.exp (s 1 c))
          + ∑ c : Fin 1024, Real.exp (s 2 c)) + ∑ c : Fin 1024, Real.exp (s 3 c)),
      Real.exp (-(max (max (max (bm 0) (bm 1)) (bm 2)) (bm 3))) *
        ((((∑ c : Fin 1024, Real.exp (s 0 c) * v 0 c) + ∑ c : Fin 1024, Real.exp (s 1 c) * v 1 c)
          + ∑ c : Fin 1024, Real.exp (s 2 c) * v 2 c) + ∑ c : Fin 1024, Real.exp (s 3 c) * v 3 c)) := by
    show rowStep _ _ _ (rowStep _ _ _ (rowStep _ _ _ (rowStep _ _ _ row0))) = _
    rw [rowStep_row0, rowStep_inv, rowStep_inv, rowStep_inv]
  have hpos : ∀ j : Fin 4, 0 < ∑ c : Fin 1024, Real.exp (s j c) := fun j =>
    Finset.sum_pos (fun c _ => Real.exp_pos _) ⟨0, Finset.mem_univ _⟩
  rw [hst]
  show Ideal.div ((_ : ℝ) : EReal) ((_ : ℝ) : EReal) = _
  rw [div_inv _ _ _ (by have := hpos 0; have := hpos 1; have := hpos 2; have := hpos 3; positivity)]
  congr 1
  simp only [softAvg, Fintype.sum_prod_type, Fin.sum_univ_four]

/-- A softmax average is unchanged by re-indexing along a bijection. -/
theorem softAvg_equiv {ι κ : Type} [Fintype ι] [Fintype κ] (e : ι ≃ κ) (s v : κ → ℝ) :
    softAvg (fun i => s (e i)) (fun i => v (e i)) = softAvg s v := by
  unfold softAvg
  rw [Equiv.sum_comp e (fun k => Real.exp (s k) * v k), Equiv.sum_comp e (fun k => Real.exp (s k))]

/-- 4096 entries read as four blocks of 1024. -/
theorem softAvg_blocks (s v : Fin 4096 → ℝ) :
    softAvg (fun p : Fin 4 × Fin 1024 => s (finProdFinEquiv p)) (fun p => v (finProdFinEquiv p)) = softAvg s v :=
  softAvg_equiv (finProdFinEquiv : Fin 4 × Fin 1024 ≃ Fin 4096) s v

/-- Entry c of block j is entry c + 1024·j. -/
theorem blocks_val (j : Fin 4) (c : Fin 1024) :
    ((finProdFinEquiv (j, c) : Fin 4096) : ℕ) = c.val + 1024 * j.val := rfl

end Cert.Attn

end
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«116390_j18897856102400_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.CarryValue.lean ====
/-
  The flash-attention body's pure functions, read entry by entry at the exact extended reals.

  With q, k the query and key blocks (1024×1024 each) and v the value block, write s(r,c) = Σ_e q(r,e)·k(c,e) for the
  score of query row r against key row c. One visit of a key/value block turns the carried row maximum m(r), normaliser
  l(r) and weighted sum acc(r,d) into

      m'(r) = max (m r) (max_c s(r,c)),
      l'(r) = exp (m r − m' r) · l r + Σ_c exp (s(r,c) − m' r),
      acc'(r,d) = exp (m r − m' r) · acc(r,d) + Σ_c exp (s(r,c) − m' r) · v(c,d),

  which is one step of the row recurrence `Cert.Attn.rowStep`; the start is (−∞, 0, 0) and the block written out at the
  end is acc(r,d) / l(r). Each array operation of the body is read at an index: a product of matrices at an entry is a
  sum of products, a reduction along a row is a fold over that row, a one-column array broadcast along rows repeats its
  column, a change of format is the identity.
-/
import proofs.«116390_j18897856102400_2_alg».proof.Proof.Carry
import proofs.«116390_j18897856102400_2_alg».proof.Proof.Spec
import proofs.«116390_j18897856102400_2_alg».proof.Proof.LibMatmulRowsByRows
import proofs.«116390_j18897856102400_2_alg».proof.Proof.LibPlainMatmul
import proofs.«116390_j18897856102400_2_alg».proof.Proof.LibLaneSum
import proofs.«116390_j18897856102400_2_alg».proof.Proof.LibLaneMax
import proofs.«116390_j18897856102400_2_alg».proof.Proof.LibColumnCast
import proofs.«116390_j18897856102400_2_alg».proof.Proof.LibColumnBroadcast
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.SL.Sem Cert.KernelIdeal Cert.KernelIdeal.Gen Idealize.ShloMosaic.ValueIdx

/-- The score of query row `r` against key row `c`: the body's product q·kᵀ at (r, c). -/
theorem score_apply (q k : Vec Ideal S1024x1024 .f32) (r c : Fin 1024) :
    k1_pay7 (F := Ideal) q k (ix2 r c) = ∑ e : Fin 1024, q (ix2 r e) * k (ix2 c e) := by
  unfold k1_pay7
  rw [shapeCast_self, shapeCast_self]
  exact matmul_rows_rows_apply _ _ q k r c

/-- The largest score of query row `r` in the block: the fold of `max` from −∞ over the 1024 key rows. -/
def blockMax (q k : Vec Ideal S1024x1024 .f32) (r : Fin 1024) : EReal :=
  (Finset.univ : Finset (Fin 1024)).fold max (⊥ : EReal) (fun c => ∑ e : Fin 1024, q (ix2 r e) * k (ix2 c e))

/-- The accumulator word of the maximum is −∞. -/
theorem ofBits_neg_inf : FloatOps.ofBits (F := Ideal) .f32 0xFF800000#32 = (⊥ : EReal) := by
  show Ideal.ofBits .f32 0xFF800000#32 = ⊥
  simp [Ideal.ofBits, Ideal.ieee]

/-- The new row maximum at row `r`. -/
theorem newMax_apply (q k : Vec Ideal S1024x1024 .f32) (m : Vec Ideal S1024x1 .f32) (r : Fin 1024) :
    k1_pay8 (F := Ideal) q k m (ix2 r (0 : Fin 1)) = max (m (ix2 r (0 : Fin 1))) (blockMax q k r) := by
  unfold k1_pay8
  refine (maximumf_apply _ _ _).trans ?_
  refine congrArg (max (m (ix2 r (0 : Fin 1)))) ?_
  refine (shapeCast_a_a1_apply _ _ r (0 : Fin 1)).trans ?_
  refine (multiReduction_maximumf_rows_apply _ _ _ _ _ r).trans ?_
  rw [ofBits_neg_inf]
  unfold blockMax
  exact congrArg (fun f => (Finset.univ : Finset (Fin 1024)).fold max (⊥ : EReal) f)
    (funext fun c => score_apply q k r c)

/-- The rescaling factor exp (m − m') at row `r`. -/
theorem rescale_apply (q k : Vec Ideal S1024x1024 .f32) (m m0 : Vec Ideal S1024x1 .f32) (r : Fin 1024) :
    k1_pay9 (F := Ideal) q k m m0 (ix2 r (0 : Fin 1))
      = Ideal.exp (m0 (ix2 r (0 : Fin 1)) - max (m (ix2 r (0 : Fin 1))) (blockMax q k r)) := by
  unfold k1_pay9
  show Ideal.exp (m0 (ix2 r (0 : Fin 1)) - k1_pay8 (F := Ideal) q k m (ix2 r (0 : Fin 1))) = _
  rw [newMax_apply]

/-- The weight exp (s(r,c) − m' r) of key row `c` for query row `r`. -/
theorem weight_apply (q k : Vec Ideal S1024x1024 .f32) (m : Vec Ideal S1024x1 .f32) (r c : Fin 1024) :
    k1_pay10 (F := Ideal) q k m (ix2 r c)
      = Ideal.exp ((∑ e : Fin 1024, q (ix2 r e) * k (ix2 c e)) - max (m (ix2 r (0 : Fin 1))) (blockMax q k r)) := by
  unfold k1_pay10
  show Ideal.exp (k1_pay7 (F := Ideal) q k (ix2 r c)
      - broadcastTo S1024x1024 (k1_pay8 (F := Ideal) q k m) broadcasts_S1024x1_S1024x1024 (ix2 r c)) = _
  rw [score_apply, broadcastTo_a1_ab_apply, newMax_apply]

/-- The new normaliser at row `r`. -/
theorem newNorm_apply (q k : Vec Ideal S1024x1024 .f32) (m m0 l : Vec Ideal S1024x1 .f32) (r : Fin 1024) :
    k1_pay11 (F := Ideal) q k m m0 l (ix2 r (0 : Fin 1))
      = Ideal.exp (m0 (ix2 r (0 : Fin 1)) - max (m (ix2 r (0 : Fin 1))) (blockMax q k r)) * l (ix2 r (0 : Fin 1))
        + ∑ c : Fin 1024,
            Ideal.exp ((∑ e : Fin 1024, q (ix2 r e) * k (ix2 c e)) - max (m (ix2 r (0 : Fin 1))) (blockMax q k r)) := by
  unfold k1_pay11
  rw [shapeCast_self]
  refine (addf_apply _ _ _).trans ?_
  refine congrArg₂ (· + ·) ?_ ?_
  · refine (mulf_apply _ _ _).trans ?_
    rw [rescale_apply]
  · refine (shapeCast_a_a1_apply _ _ r (0 : Fin 1)).trans ?_
    refine (multiReduction_add_rows_apply _ _ _ _ _ r).trans ?_
    exact Finset.sum_congr rfl fun c _ => weight_apply q k m r c

/-- The new weighted sum at (r, d). -/
theorem newAcc_apply (q k : Vec Ideal S1024x1024 .f32) (v : Vec Ideal S1024x1024 .bf16) (m m0 : Vec Ideal S1024x1 .f32)
    (acc : Vec Ideal S1024x1024 .f32) (r d : Fin 1024) :
    k1_pay12 (F := Ideal) q k v m m0 acc (ix2 r d)
      = Ideal.exp (m0 (ix2 r (0 : Fin 1)) - max (m (ix2 r (0 : Fin 1))) (blockMax q k r)) * acc (ix2 r d)
        + ∑ c : Fin 1024,
            Ideal.exp ((∑ e : Fin 1024, q (ix2 r e) * k (ix2 c e)) - max (m (ix2 r (0 : Fin 1))) (blockMax q k r))
              * v (ix2 c d) := by
  unfold k1_pay12
  rw [shapeCast_self]
  refine (addf_apply _ _ _).trans ?_
  refine congrArg₂ (· + ·) ?_ ?_
  · refine (mulf_apply _ _ _).trans ?_
    rw [broadcastTo_a1_ab_apply, rescale_apply]
  · refine (matmul_plain_zero_apply (φ₁ := .bf16) (φ₂ := .bf16) _ none _ _ r d).trans ?_
    exact Finset.sum_congr rfl fun c _ => by rw [truncf_apply, weight_apply]

/-- The carry a query block starts from, at row `r` and column `d`: (−∞, 0, 0). -/
theorem carry0_row (r d : Fin 1024) :
    ((carry0 (F := Ideal)).1 (ix2 r (0 : Fin 1)), (carry0 (F := Ideal)).2.1 (ix2 r (0 : Fin 1)),
      (carry0 (F := Ideal)).2.2 (ix2 r d)) = Cert.Attn.row0 := by
  unfold carry0 Cert.Attn.row0
  dsimp only
  unfold k1_pay4 k1_pay5 k1_pay6
  rw [shapeCast_self, shapeCast_self, shapeCast_self]
  refine Prod.ext ?_ (Prod.ext ?_ ?_)
  · exact ofBits_neg_inf
  · exact Ideal.ofBits_zero_f32
  · exact Ideal.ofBits_zero_f32

/-- One key/value block visited, at row `r` and column `d`: one step of the row recurrence, on the block's scores of
    row `r`, its largest score and column `d` of the value block. -/
theorem carryStep_row (q k : Vec Ideal S1024x1024 .f32) (v : Vec Ideal S1024x1024 .bf16) (s : Carry Ideal)
    (r d : Fin 1024) :
    ((carryStep q k v s).1 (ix2 r (0 : Fin 1)), (carryStep q k v s).2.1 (ix2 r (0 : Fin 1)),
      (carryStep q k v s).2.2 (ix2 r d))
      = Cert.Attn.rowStep (blockMax q k r) (fun c => ∑ e : Fin 1024, q (ix2 r e) * k (ix2 c e))
          (fun c => v (ix2 c d)) (s.1 (ix2 r (0 : Fin 1)), s.2.1 (ix2 r (0 : Fin 1)), s.2.2 (ix2 r d)) := by
  unfold carryStep Cert.Attn.rowStep
  dsimp only
  unfold k1_pay2 k1_pay1
  rw [shapeCast_self, shapeCast_self]
  refine Prod.ext ?_ (Prod.ext ?_ ?_)
  · exact newMax_apply q k s.1 r
  · exact newNorm_apply q k s.1 s.1 s.2.1 r
  · exact newAcc_apply q k v s.1 s.1 s.2.2 r d

/-- The block written out, at (r, d): the weighted sum over the normaliser of its row. -/
theorem carryOut_apply (s : Carry Ideal) (r d : Fin 1024) :
    carryOut s (ix2 r d) = Ideal.div (s.2.2 (ix2 r d)) (s.2.1 (ix2 r (0 : Fin 1))) := by
  unfold carryOut k1_pay3
  refine (divf_apply _ _ _).trans ?_
  rw [broadcastTo_a1_ab_apply]

/-- The largest of 1024 real scores is a real number: a fold of `max` from −∞ over a nonempty family is one of its
    members. -/
theorem blockMax_real (q k : Vec Ideal S1024x1024 .f32) (r : Fin 1024)
    (h : ∀ c : Fin 1024, ∃ ρ : ℝ, (∑ e : Fin 1024, q (ix2 r e) * k (ix2 c e)) = (ρ : EReal)) :
    ∃ ρ : ℝ, blockMax q k r = (ρ : EReal) := by
  obtain ⟨c, -, hc⟩ := Finset.exists_mem_eq_sup (Finset.univ : Finset (Fin 1024)) ⟨0, Finset.mem_univ _⟩
    (fun c => ∑ e : Fin 1024, q (ix2 r e) * k (ix2 c e))
  obtain ⟨ρ, hρ⟩ := h c
  exact ⟨ρ, (show blockMax q k r = _ from hc).trans hρ⟩

end Cert.KernelIdeal.Hand

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.SoftAvg.lean ====
/-
  A softmax average does not change when one number is subtracted from every score:
  Σ_k (e^{s k − ρ} / Σ_j e^{s j − ρ}) · v k = (Σ_k e^{s k}·v k) / (Σ_k e^{s k}),
  because e^{s − ρ} = e^{s}·e^{−ρ} and the common positive factor e^{−ρ} cancels between the numerator and the
  denominator (a sum of exponentials over a nonempty index set is positive).
-/
import proofs.«116390_j18897856102400_2_alg».proof.Proof.Spec

noncomputable section

namespace Cert.Attn

/-- A sum of exponentials over a nonempty finite type is positive. -/
theorem sum_exp_pos {ι : Type} [Fintype ι] [Nonempty ι] (s : ι → ℝ) : 0 < ∑ k, Real.exp (s k) :=
  Finset.sum_pos (fun k _ => Real.exp_pos _) Finset.univ_nonempty

/-- Weights e^{s k − ρ} normalised by their sum give the softmax average, whatever ρ is. -/
theorem softAvg_shift {ι : Type} [Fintype ι] [Nonempty ι] (s v : ι → ℝ) (ρ : ℝ) :
    ∑ k, (Real.exp (s k - ρ) / ∑ j, Real.exp (s j - ρ)) * v k = softAvg s v := by
  have hpos : 0 < ∑ j, Real.exp (s j) := sum_exp_pos s
  have hρ : 0 < Real.exp (-ρ) := Real.exp_pos _
  have hden : ∑ j, Real.exp (s j - ρ) = (∑ j, Real.exp (s j)) * Real.exp (-ρ) := by
    rw [Finset.sum_mul]
    exact Finset.sum_congr rfl fun j _ => by rw [sub_eq_add_neg, Real.exp_add]
  unfold softAvg
  rw [hden, Finset.sum_div]
  refine Finset.sum_congr rfl fun k _ => ?_
  rw [sub_eq_add_neg, Real.exp_add]
  field_simp

end Cert.Attn

end
-- ==== Proof.KernelReal.lean ====
/-
  One entry of the flash-attention result, over the reals. Fix a query row (row r of its block, row i of the whole
  array) and an output column d. Suppose the query block's row r (the same at each of the four visits) holds the real numbers Q(i,e)/32, the four key blocks
  hold the real numbers K(c + 1024·j, e) and the four value blocks the real numbers V(c + 1024·j, d). Then the three
  carried entries (maximum of row r, normaliser of row r, weighted sum at (r,d)) follow the row recurrence on the real
  scores s(j,c) = Σ_e (Q(i,e)/32)·K(c + 1024·j, e): every score is a real number, so each block's largest score is a
  real number, and the online-softmax identity gives the softmax average of column d of V over all 4·1024 keys. Read
  over 4096 keys, with Σ_e (a_e/32)·b_e = (Σ_e a_e·b_e)/32, that average is the specified output at (i,d).
-/
import proofs.«116390_j18897856102400_2_alg».proof.Proof.Carry
import proofs.«116390_j18897856102400_2_alg».proof.Proof.Spec
import proofs.«116390_j18897856102400_2_alg».proof.Proof.Online
import proofs.«116390_j18897856102400_2_alg».proof.Proof.CarryValue
import proofs.«116390_j18897856102400_2_alg».proof.Proof.LibERealSums
import proofs.«116390_j18897856102400_2_alg».proof.Proof.SoftAvg

noncomputable section

namespace Cert.KernelIdeal.Hand

open Idealize.ShloMosaic Idealize.SL.Sem Cert.KernelIdeal Cert.KernelIdeal.Gen Idealize.ShloMosaic.ValueIdx

/-- The scores against the keys read in four blocks are the specified scores: the factor 1/32 moves out of the sum. -/
theorem blockScore_eq (xr : Cert.Attn.SX.Idx → ℝ) (wqr wkr : Cert.Attn.SW.Idx → ℝ) (i : Fin 4096)
    (j : Fin 4) (c : Fin 1024) :
    ∑ e : Fin 1024, (Cert.Attn.projR xr wqr i e * (1 / 32)) * Cert.Attn.projR xr wkr (finProdFinEquiv (j, c)) e
      = Cert.Attn.scoreR xr wqr wkr i (finProdFinEquiv (j, c)) := by
  unfold Cert.Attn.scoreR
  rw [Finset.sum_mul]
  exact Finset.sum_congr rfl fun e _ => by ring

/-- After the four key/value blocks, the entry (r, d) written out is the specified attention output at (i, d). -/
theorem kernel_row_real (xr : Cert.Attn.SX.Idx → ℝ) (wqr wkr wvr : Cert.Attn.SW.Idx → ℝ)
    (qb kb : Fin 4 → Vec Ideal S1024x1024 .f32) (vb : Fin 4 → Vec Ideal S1024x1024 .bf16)
    (i : Fin 4096) (r : Fin 1024)
    (hq : ∀ (j : Fin 4) (e : Fin 1024), qb j (ix2 r e) = ((Cert.Attn.projR xr wqr i e * (1 / 32) : ℝ) : EReal))
    (hk : ∀ (j : Fin 4) (c e : Fin 1024),
      kb j (ix2 c e) = ((Cert.Attn.projR xr wkr (finProdFinEquiv (j, c)) e : ℝ) : EReal))
    (hv : ∀ (j : Fin 4) (c d : Fin 1024),
      vb j (ix2 c d) = ((Cert.Attn.projR xr wvr (finProdFinEquiv (j, c)) d : ℝ) : EReal))
    (d : Fin 1024) :
    carryOut (carryStep (qb 3) (kb 3) (vb 3) (carryStep (qb 2) (kb 2) (vb 2) (carryStep (qb 1) (kb 1) (vb 1)
        (carryStep (qb 0) (kb 0) (vb 0) (carry0 (F := Ideal)))))) (ix2 r d)
      = ((Cert.Attn.outR xr wqr wkr wvr i d : ℝ) : EReal) := by
  -- the real scores and values, block by block
  obtain ⟨sR, hsR⟩ : ∃ sR : Fin 4 → Fin 1024 → ℝ, sR = fun j c =>
      ∑ e : Fin 1024, (Cert.Attn.projR xr wqr i e * (1 / 32)) * Cert.Attn.projR xr wkr (finProdFinEquiv (j, c)) e :=
    ⟨_, rfl⟩
  obtain ⟨vR, hvR⟩ : ∃ vR : Fin 4 → Fin 1024 → ℝ, vR = fun j c =>
      Cert.Attn.projR xr wvr (finProdFinEquiv (j, c)) d := ⟨_, rfl⟩
  have hs : ∀ (j : Fin 4) (c : Fin 1024),
      (∑ e : Fin 1024, qb j (ix2 r e) * kb j (ix2 c e)) = ((sR j c : ℝ) : EReal) := by
    intro j c
    rw [hsR]
    simp only [hq, hk]
    exact Cert.Attn.sum_coe_mul_coe _ _
  have hvv : ∀ (j : Fin 4) (c : Fin 1024), vb j (ix2 c d) = ((vR j c : ℝ) : EReal) := by
    intro j c
    rw [hvR]
    exact hv j c d
  -- each block's largest score is a real number
  choose bm hbm using fun j : Fin 4 => blockMax_real (qb j) (kb j) r (fun c => ⟨sR j c, hs j c⟩)
  -- the three carried entries follow the row recurrence
  have h1 := (carryStep_row (qb 0) (kb 0) (vb 0) (carry0 (F := Ideal)) r d).trans
    (congrArg (Cert.Attn.rowStep _ _ _) (carry0_row r d))
  have h2 := (carryStep_row (qb 1) (kb 1) (vb 1) _ r d).trans (congrArg (Cert.Attn.rowStep _ _ _) h1)
  have h3 := (carryStep_row (qb 2) (kb 2) (vb 2) _ r d).trans (congrArg (Cert.Attn.rowStep _ _ _) h2)
  have hT := (carryStep_row (qb 3) (kb 3) (vb 3) _ r d).trans (congrArg (Cert.Attn.rowStep _ _ _) h3)
  simp only [hs, hvv, hbm] at hT
  have ho := Cert.Attn.online_row sR vR bm
  dsimp only at ho
  rw [← hT] at ho
  rw [carryOut_apply]
  refine ho.trans (congrArg Real.toEReal ?_)
  -- the average over four blocks of 1024 keys is the average over 4096 keys
  have e1 : (fun p : Fin 4 × Fin 1024 => sR p.1 p.2)
      = fun p => Cert.Attn.scoreR xr wqr wkr i (finProdFinEquiv p) := by
    funext p
    obtain ⟨j, c⟩ := p
    rw [hsR]
    exact blockScore_eq xr wqr wkr i j c
  have e2 : (fun p : Fin 4 × Fin 1024 => vR p.1 p.2)
      = fun p => Cert.Attn.projR xr wvr (finProdFinEquiv p) d := by
    funext p
    obtain ⟨j, c⟩ := p
    rw [hvR]
  rw [e1, e2]
  exact Cert.Attn.softAvg_blocks (fun k => Cert.Attn.scoreR xr wqr wkr i k) (fun k => Cert.Attn.projR xr wvr k d)

end Cert.KernelIdeal.Hand

end
-- ==== Proof.Const32.lean ====
/-
  The float word 0x3D000000 (sign 0, exponent field 122, fraction 0) denotes 2^(122 − 127) = 1/32.
-/
import Idealize.ShloMosaic.PureOps.Ideal

noncomputable section

namespace Cert.Attn

open Idealize.ShloMosaic

/-- The word 0x3D000000 denotes the real number 1/32. -/
theorem ofBits_inv32 : Ideal.ofBits .f32 0x3D000000#32 = ((1 / 32 : ℝ) : EReal) := by
  simp [Ideal.ofBits, Ideal.ieee, -EReal.coe_mul]; norm_num

/-- The same through the operations' own constant. -/
theorem floatOps_ofBits_inv32 : FloatOps.ofBits (F := Ideal) .f32 0x3D000000#32 = ((1 / 32 : ℝ) : EReal) :=
  ofBits_inv32

end Cert.Attn

end
-- ==== Proof.KernelValue.lean ====
/-
  The kernel's result, entry by entry, when every input entry is a real number. Row i of the result lies in query block
  i / 1024 at row i % 1024; the attention pallas_call leaves there the quotient of the carry after that query block's four
  key/value blocks; the blocks it visits are blocks of the three projected arrays, whose entries the projection pallas_call
  left at Σ_f x(i,f)·W(f,e) (the query projection times 1/32); so the entry is the softmax average of the specification.
-/
import proofs.«116390_j18897856102400_2_alg».proof.Proof.Run
import proofs.«116390_j18897856102400_2_alg».proof.Proof.Region0Value
import proofs.«116390_j18897856102400_2_alg».proof.Proof.Region1Final
import proofs.«116390_j18897856102400_2_alg».proof.Proof.KernelReal
import proofs.«116390_j18897856102400_2_alg».proof.Proof.Const32
import proofs.«116390_j18897856102400_2_alg».proof.Proof.LibERealSums

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- A projection's entry, on real inputs, is the specification's (coerced). -/
theorem matProd_real (xr : Cert.Attn.SX.Idx → ℝ) (wr : Cert.Attn.SW.Idx → ℝ) (i : Fin 4096) (e : Fin 1024) :
    (∑ f : Fin 1024, ((xr (ix2 i f) : ℝ) : EReal) * ((wr (ix2 f e) : ℝ) : EReal)) = ((Cert.Attn.projR xr wr i e : ℝ) : EReal) :=
  Cert.Attn.sum_coe_mul_coe (fun f : Fin 1024 => xr (ix2 i f)) (fun f => wr (ix2 f e))

theorem kernel_value (c : Dev nD) (xr : Cert.Attn.SX.Idx → ℝ) (wqr wkr wvr : Cert.Attn.SW.Idx → ℝ)
    (hx : (V0 m c main_arg0 : Cert.Attn.SX.Idx → EReal) = fun j => ((xr j : ℝ) : EReal))
    (hwq : (V0 m c main_arg1 : Cert.Attn.SW.Idx → EReal) = fun j => ((wqr j : ℝ) : EReal))
    (hwk : (V0 m c main_arg2 : Cert.Attn.SW.Idx → EReal) = fun j => ((wkr j : ℝ) : EReal))
    (hwv : (V0 m c main_arg3 : Cert.Attn.SW.Idx → EReal) = fun j => ((wvr j : ℝ) : EReal))
    (i : Fin 4096) (d : Fin 1024) :
    (dat1 (F := Ideal) (V1 m) c).arrAt 3 cfg1.N (ix2 i d) = ((Cert.Attn.outR xr wqr wkr wvr i d : ℝ) : EReal) := by
  obtain ⟨⟨qi, r⟩, rfl⟩ := (finProdFinEquiv (m := 4) (n := 1024)).surjective i
  rw [attn_final (V1 m) c qi r d, carry_block (V1 m) c qi]
  refine kernel_row_real xr wqr wkr wvr (fun j => iblk1 (V1 m) c 0 (pt qi j)) (fun j => iblk1 (V1 m) c 1 (pt qi j))
    (fun j => iblk1 (V1 m) c 2 (pt qi j)) (finProdFinEquiv (qi, r)) r ?_ ?_ ?_ d
  · intro j e
    show iblk1 (V1 m) c 0 (pt qi j) (ix2 r e) = _
    rw [qblk_apply (V1 m) c qi j r e, V1_main_v0_0 m c, q_final (V0 m) c (finProdFinEquiv (qi, r)) e, matProd_apply, hx, hwq]
    show (∑ f : Fin 1024, ((xr (ix2 (finProdFinEquiv (qi, r)) f) : ℝ) : EReal) * ((wqr (ix2 f e) : ℝ) : EReal)) * _ = _
    rw [matProd_real, Cert.Attn.ofBits_inv32, ← EReal.coe_mul]
  · intro j cc e
    show iblk1 (V1 m) c 1 (pt qi j) (ix2 cc e) = _
    rw [kblk_apply (V1 m) c qi j cc e, V1_main_v0_1 m c, k_final (V0 m) c (finProdFinEquiv (j, cc)) e, matProd_apply, hx, hwk]
    exact matProd_real xr wkr _ e
  · intro j cc d'
    show iblk1 (V1 m) c 2 (pt qi j) (ix2 cc d') = _
    rw [vblk_apply (V1 m) c qi j cc d', V1_main_v0_2 m c, v_final (V0 m) c (finProdFinEquiv (j, cc)) d', matProd_apply, hx, hwv]
    exact matProd_real xr wvr _ d'

end Cert.KernelIdeal.Hand

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.Finite.lean ====
/-
  The finiteness precondition, decoded. The predicate is the conjunction of four tests "every entry e of the array
  has |e| < +∞", one per input array; each test is an and-reduction over all entries, started at 1, of the comparison
  max(e, −e) < +∞. If the predicate is 1, every comparison is 1; and |e| < +∞ fails at e = ±∞, so every entry is the
  image of a real number.
-/
import proofs.«116390_j18897856102400_2_alg».proof.Pre_finite_inputs
import proofs.«116390_j18897856102400_2_alg».proof.Proof.LibFiniteEntry
import Idealize.ShloMosaic.Lib.ReduceAll
import Idealize.ShloMosaic.Lib.ValueIdx

noncomputable section

namespace Cert.Attn

open Idealize.ShloMosaic

/-- The shape with no axes has one index. -/
instance subsingleton_scalarIdx : Subsingleton Cert.Pre_finite_inputs.S_.Idx :=
  ⟨fun a b => funext fun d => d.elim0⟩

/-- Where the finiteness predicate holds, every entry of every input array is a real number. -/
theorem real_of_pre [Cert.Pre_finite_inputs.Facts]
    (a0 : FVec Ideal Cert.Pre_finite_inputs.S4096x1024 .f32)
    (a1 a2 a3 : FVec Ideal Cert.Pre_finite_inputs.S1024x1024 .f32)
    (h : Cert.Pre_finite_inputs.fn (F := Ideal) a0 a1 a2 a3 = (fun _ => 1#1)) :
    (∀ j, ∃ r : ℝ, a0 j = (r : EReal)) ∧ (∀ j, ∃ r : ℝ, a1 j = (r : EReal)) ∧
    (∀ j, ∃ r : ℝ, a2 j = (r : EReal)) ∧ (∀ j, ∃ r : ℝ, a3 j = (r : EReal)) := by
  have h0 := congrFun h ValueIdx.ix0
  dsimp only [Cert.Pre_finite_inputs.fn, Cert.Pre_finite_inputs.fn_part1] at h0
  change IntOp.andi (IntOp.andi (IntOp.andi _ _) _) _ = 1#1 at h0
  obtain ⟨h012, e3⟩ := IntOp.andi_eq_one.1 h0
  obtain ⟨h01, e2⟩ := IntOp.andi_eq_one.1 h012
  obtain ⟨e0, e1⟩ := IntOp.andi_eq_one.1 h01
  refine ⟨fun j => ?_, fun j => ?_, fun j => ?_, fun j => ?_⟩
  · exact Ideal.real_of_abs_lt_inf _ (Host.reduce_andi_all _ _ _ _ _ e0 j)
  · exact Ideal.real_of_abs_lt_inf _ (Host.reduce_andi_all _ _ _ _ _ e1 j)
  · exact Ideal.real_of_abs_lt_inf _ (Host.reduce_andi_all _ _ _ _ _ e2 j)
  · exact Ideal.real_of_abs_lt_inf _ (Host.reduce_andi_all _ _ _ _ _ e3 j)

end Cert.Attn

end
-- ==== Proof.RefScores.lean ====
/-
  The first half of the reference program, read entry by entry when every input entry is a real number: the three
  projections x·W_q, x·W_k, x·W_v are finite sums of products of reals; the scale 1/√1024 is the real number 1/32
  (32·32 = 1024); so the scaled score of query row i against key row k is the real number
  (Σ_e (x·W_q)(i,e)·(x·W_k)(k,e))·(1/32).
-/
import proofs.«116390_j18897856102400_2_alg».proof.Proof.Gen.ReferenceIdeal.Read
import proofs.«116390_j18897856102400_2_alg».proof.Proof.Spec
import proofs.«116390_j18897856102400_2_alg».proof.Proof.LibERealSums

noncomputable section

namespace Cert.ReferenceIdeal.RefValue

open Cert.ReferenceIdeal Cert.ReferenceIdeal.Gen Cert.ReferenceIdeal.Read Cert.Attn
open Idealize.ShloMosaic Idealize.ShloMosaic.ValueIdx

/-- A real array as an array of extended reals. -/
abbrev up {s : Shape} (a : s.Idx → ℝ) : s.Idx → EReal := fun j => ((a j : ℝ) : EReal)

variable (xr : SX.Idx → ℝ) (wqr wkr wvr : SW.Idx → ℝ)

/-! ## The three projections -/

/-- x·W_q at (i, e). -/
theorem v0_real (i : Fin 4096) (e : Fin 1024) :
    val_main_v0 (F := Ideal) (up xr) (up wqr) (ix2 i e) = ((projR xr wqr i e : ℝ) : EReal) := by
  rw [val_main_v0_apply]
  have hl : ∀ k : Fin 1024, lidx_main_v0 (ix2 i e) k = ix2 i k := fun k =>
    funext fun a => match a with | ⟨0, _⟩ => rfl | ⟨1, _⟩ => rfl
  have hr : ∀ k : Fin 1024, ridx_main_v0 (ix2 i e) k = ix2 k e := fun k =>
    funext fun a => match a with | ⟨0, _⟩ => rfl | ⟨1, _⟩ => rfl
  simp only [hl, hr]
  exact sum_coe_mul_coe (fun k : Fin 1024 => xr (ix2 i k)) (fun k => wqr (ix2 k e))

/-- x·W_k at (k, e). -/
theorem v1_real (k : Fin 4096) (e : Fin 1024) :
    val_main_v1 (F := Ideal) (up xr) (up wkr) (ix2 k e) = ((projR xr wkr k e : ℝ) : EReal) := by
  rw [val_main_v1_apply]
  have hl : ∀ f : Fin 1024, lidx_main_v1 (ix2 k e) f = ix2 k f := fun f =>
    funext fun a => match a with | ⟨0, _⟩ => rfl | ⟨1, _⟩ => rfl
  have hr : ∀ f : Fin 1024, ridx_main_v1 (ix2 k e) f = ix2 f e := fun f =>
    funext fun a => match a with | ⟨0, _⟩ => rfl | ⟨1, _⟩ => rfl
  simp only [hl, hr]
  exact sum_coe_mul_coe (fun f : Fin 1024 => xr (ix2 k f)) (fun f => wkr (ix2 f e))

/-- x·W_v at (k, d). -/
theorem v2_real (k : Fin 4096) (d : Fin 1024) :
    val_main_v2 (F := Ideal) (up xr) (up wvr) (ix2 k d) = ((projR xr wvr k d : ℝ) : EReal) := by
  rw [val_main_v2_apply]
  have hl : ∀ f : Fin 1024, lidx_main_v2 (ix2 k d) f = ix2 k f := fun f =>
    funext fun a => match a with | ⟨0, _⟩ => rfl | ⟨1, _⟩ => rfl
  have hr : ∀ f : Fin 1024, ridx_main_v2 (ix2 k d) f = ix2 f d := fun f =>
    funext fun a => match a with | ⟨0, _⟩ => rfl | ⟨1, _⟩ => rfl
  simp only [hl, hr]
  exact sum_coe_mul_coe (fun f : Fin 1024 => xr (ix2 k f)) (fun f => wvr (ix2 f d))

/-- The transposed key projection at (e, k) is x·W_k at (k, e). -/
theorem v5_real (e : Fin 1024) (k : Fin 4096) :
    val_main_v5 (F := Ideal) (up xr) (up wkr) (ix2 e k) = ((projR xr wkr k e : ℝ) : EReal) := by
  rw [val_main_v5_apply]
  have h : idx_main_v5 (ix2 e k) = ix2 k e :=
    funext fun a => match a with | ⟨0, _⟩ => rfl | ⟨1, _⟩ => rfl
  rw [h, v1_real]

/-! ## The scale 1/√1024 -/

theorem ofBits_1024 : Ideal.ofBits .f32 0x44800000#32 = ((1024 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_negInf : Ideal.ofBits .f32 0xFF800000#32 = ⊥ := by
  simp [Ideal.ofBits, Ideal.ieee]

/-- The scale is the real number 1/32. -/
theorem v4_real (j : S_.Idx) : val_main_v4 (F := Ideal) j = (((1 : ℝ) / 32 : ℝ) : EReal) := by
  rw [val_main_v4_apply, val_main_v3_apply, val_main_cst_apply, val_main_cst_0_apply]
  simp only [Ideal.ofBits_def, Ideal.hostUnary_sqrt_def, Ideal.hostDivf_def]
  rw [ofBits_1024, ofBits_one, Ideal.sqrt_coe, if_neg (by norm_num)]
  have h32 : Real.sqrt 1024 = 32 := by
    rw [show (1024 : ℝ) = 32 ^ 2 by norm_num, Real.sqrt_sq (by norm_num)]
  rw [h32, Ideal.div_coe (by norm_num), one_mul]

/-! ## The scaled scores -/

/-- The scaled score at (i, k). -/
theorem v8_real (i k : Fin 4096) :
    val_main_v8 (F := Ideal) (up xr) (up wqr) (up wkr) (ix2 i k) = ((scoreR xr wqr wkr i k : ℝ) : EReal) := by
  rw [val_main_v8_apply, val_main_v6_apply, val_main_v7_apply, v4_real]
  have hl : ∀ e : Fin 1024, lidx_main_v6 (ix2 i k) e = ix2 i e := fun e =>
    funext fun a => match a with | ⟨0, _⟩ => rfl | ⟨1, _⟩ => rfl
  have hr : ∀ e : Fin 1024, ridx_main_v6 (ix2 i k) e = ix2 e k := fun e =>
    funext fun a => match a with | ⟨0, _⟩ => rfl | ⟨1, _⟩ => rfl
  simp only [hl, hr, v0_real, v5_real, Ideal.mulf_def]
  rw [sum_coe_mul_coe (fun e : Fin 1024 => projR xr wqr i e) (fun e => projR xr wkr k e), ← EReal.coe_mul]
  rfl

end Cert.ReferenceIdeal.RefValue

end
-- ==== Proof.RefMax.lean ====
/-
  The number the reference subtracts from row i of the scaled scores, when every input entry is real: it is the
  maximum, taken from −∞, of the 4096 real scores of the row (and then once more the maximum with −∞), so it is a
  real number. A maximum from −∞ over a nonempty finite family of reals is a real by induction on the family.
-/
import proofs.«116390_j18897856102400_2_alg».proof.Proof.RefScores

noncomputable section

namespace Cert.ReferenceIdeal.RefValue

open Cert.ReferenceIdeal Cert.ReferenceIdeal.Gen Cert.ReferenceIdeal.Read Cert.Attn
open Idealize.ShloMosaic Idealize.ShloMosaic.ValueIdx

variable (xr : SX.Idx → ℝ) (wqr wkr : SW.Idx → ℝ)

/-- The score array reduces along its second axis to one entry per row. -/
theorem reduces_row : S4096x4096.Reduces [1] S4096 := by decide

/-- Over row i, the score array's index with column k inserted. -/
theorem lift_row (h : S4096x4096.Reduces [1] S4096) (i k : Fin 4096) : h.lift (ix1 i) k = ix2 i k :=
  funext fun a => match a with | ⟨0, _⟩ => rfl | ⟨1, _⟩ => rfl

/-- The maximum from −∞ along row i of an array whose row i holds real numbers is a real number. -/
theorem rowMax_real (x : S4096x4096.Idx → EReal) (init : S_.Idx → EReal) (s : Fin 4096 → ℝ) (i : Fin 4096)
    (hx : ∀ k : Fin 4096, x (ix2 i k) = ((s k : ℝ) : EReal)) (hinit : init (Shape.Idx.first h_S_) = ⊥) :
    ∃ ρ : ℝ, Host.reduce (FloatOps.maximumf (F := Ideal) (φ := .f32)) x init reducesTo_S4096x4096_S4096_d1 h_S_ (ix1 i)
      = (ρ : EReal) := by
  rw [Host.reduce_eq_fold_single (FloatOps.maximumf (F := Ideal) (φ := .f32)) x init _ reduces_row h_S_, hinit]
  have hf : (x ∘ reduces_row.lift (ix1 i)) = fun k : Fin 4096 => ((s k : ℝ) : EReal) :=
    funext fun k => (congrArg x (lift_row reduces_row i k)).trans (hx k)
  rw [hf]
  exact fold_max_coe_exists (Finset.univ : Finset (Fin 4096)) Finset.univ_nonempty s

/-- The maximum from −∞ of row i of the scores is a real number. -/
theorem v9_real (i : Fin 4096) :
    ∃ ρ : ℝ, val_main_v9 (F := Ideal) (up xr) (up wqr) (up wkr) (ix1 i) = (ρ : EReal) := by
  unfold val_main_v9
  exact rowMax_real _ _ (fun k => scoreR xr wqr wkr i k) i (fun k => v8_real xr wqr wkr i k)
    (by rw [val_main_cst_1_apply, Ideal.ofBits_def, ofBits_negInf])

/-- So is its maximum with −∞, the number the reference subtracts from the row. -/
theorem v11_real (i : Fin 4096) :
    ∃ ρ : ℝ, val_main_v11 (F := Ideal) (up xr) (up wqr) (up wkr) (ix1 i) = (ρ : EReal) := by
  obtain ⟨ρ, hρ⟩ := v9_real xr wqr wkr i
  refine ⟨ρ, ?_⟩
  rw [val_main_v11_apply, val_main_v10_apply, val_main_cst_2_apply, hρ]
  simp only [Ideal.ofBits_def, Ideal.maximumf_def]
  rw [ofBits_negInf]
  exact max_eq_right bot_le

/-- The subtracted array at (i, k) is that number of row i. -/
theorem v13_eq (i k : Fin 4096) :
    val_main_v13 (F := Ideal) (up xr) (up wqr) (up wkr) (ix2 i k)
      = val_main_v11 (F := Ideal) (up xr) (up wqr) (up wkr) (ix1 i) := by
  rw [val_main_v13_apply, val_main_v12_apply]
  have h : idx_main_v12 (idx_main_v13 (ix2 i k)) = ix1 i := funext fun a => match a with | ⟨0, _⟩ => rfl
  rw [h]

end Cert.ReferenceIdeal.RefValue

end
-- ==== Proof.RefExp.lean ====
/-
  The second half of the reference's softmax, read entry by entry when every input entry is real. With ρ the real
  number subtracted from row i of the scores: the exponential at (i, k) is the positive real e^{s(i,k) − ρ}; the
  row sum of these 4096 exponentials, taken from 0, is a positive real; so the quotient at (i, k) is the real
  number e^{s(i,k) − ρ} / Σ_j e^{s(i,j) − ρ}.
-/
import proofs.«116390_j18897856102400_2_alg».proof.Proof.RefMax
import proofs.«116390_j18897856102400_2_alg».proof.Proof.SoftAvg

noncomputable section

namespace Cert.ReferenceIdeal.RefValue

open Cert.ReferenceIdeal Cert.ReferenceIdeal.Gen Cert.ReferenceIdeal.Read Cert.Attn
open Idealize.ShloMosaic Idealize.ShloMosaic.ValueIdx

variable (xr : SX.Idx → ℝ) (wqr wkr : SW.Idx → ℝ)

section Row
variable (i : Fin 4096) (ρ : ℝ)
  (hρ : val_main_v11 (F := Ideal) (up xr) (up wqr) (up wkr) (ix1 i) = (ρ : EReal))
include hρ

/-- e^{s(i,k) − ρ}. -/
theorem v15_real (k : Fin 4096) :
    val_main_v15 (F := Ideal) (up xr) (up wqr) (up wkr) (ix2 i k)
      = ((Real.exp (scoreR xr wqr wkr i k - ρ) : ℝ) : EReal) := by
  rw [val_main_v15_apply, val_main_v14_apply, v8_real, v13_eq, hρ]
  simp only [Ideal.subf_def, Ideal.hostUnary_exp_def]
  rw [← EReal.coe_sub, Ideal.exp_coe]

/-- The row sum of the exponentials, from 0. -/
theorem v16_real :
    val_main_v16 (F := Ideal) (up xr) (up wqr) (up wkr) (ix1 i)
      = ((∑ k : Fin 4096, Real.exp (scoreR xr wqr wkr i k - ρ) : ℝ) : EReal) := by
  rw [val_main_v16_apply, val_main_cst_3_apply, Ideal.ofBits_def, Ideal.ofBits_zero_f32, zero_add]
  have hi : ∀ k : Fin 4096, idx_main_v16 (ix1 i) k = ix2 i k := fun k =>
    funext fun a => match a with | ⟨0, _⟩ => rfl | ⟨1, _⟩ => rfl
  simp only [hi, v15_real xr wqr wkr i ρ hρ]
  exact (coe_sum_univ _).symm

/-- The weight at (i, k): e^{s(i,k) − ρ} over the row sum, a real division since the sum is positive. -/
theorem v19_real (k : Fin 4096) :
    val_main_v19 (F := Ideal) (up xr) (up wqr) (up wkr) (ix2 i k)
      = ((Real.exp (scoreR xr wqr wkr i k - ρ) / ∑ j : Fin 4096, Real.exp (scoreR xr wqr wkr i j - ρ) : ℝ) : EReal) := by
  have h18 : val_main_v18 (F := Ideal) (up xr) (up wqr) (up wkr) (ix2 i k)
      = val_main_v16 (F := Ideal) (up xr) (up wqr) (up wkr) (ix1 i) := by
    rw [val_main_v18_apply, val_main_v17_apply]
    have h : idx_main_v17 (idx_main_v18 (ix2 i k)) = ix1 i := funext fun a => match a with | ⟨0, _⟩ => rfl
    rw [h]
  haveI : Nonempty (Fin 4096) := ⟨⟨0, by norm_num⟩⟩
  have hpos : 0 < ∑ j : Fin 4096, Real.exp (scoreR xr wqr wkr i j - ρ) :=
    sum_exp_pos fun j : Fin 4096 => scoreR xr wqr wkr i j - ρ
  rw [val_main_v19_apply, v15_real xr wqr wkr i ρ hρ, h18, v16_real xr wqr wkr i ρ hρ]
  simp only [Ideal.hostDivf_def]
  rw [Ideal.div_coe hpos.ne', ← EReal.coe_mul, mul_one_div]

end Row

end Cert.ReferenceIdeal.RefValue

end
-- ==== Proof.RefValue.lean ====
/-
  The reference program's result when every input entry is a real number. Each of its operations then produces real
  numbers only: the projections and the score product are finite sums of products of reals, the scale is
  1/√1024 = 1/32, the maximum of a row of real scores taken from −∞ is a real number ρ, the exponentials
  e^{s − ρ} are positive reals and so is their row sum, and the last product is a finite sum of products of reals:
  out(i,d) = Σ_k (e^{s(i,k) − ρ} / Σ_j e^{s(i,j) − ρ}) · (x·W_v)(k,d). A softmax average does not change when one
  number is subtracted from every score, so this is the softmax average of column d of x·W_v under the scaled
  scores of row i: the specification's value.
-/
import proofs.«116390_j18897856102400_2_alg».proof.Proof.RefExp

noncomputable section

namespace Cert.ReferenceIdeal.RefValue

open Cert.ReferenceIdeal Cert.ReferenceIdeal.Gen Cert.ReferenceIdeal.Read Cert.Attn
open Idealize.ShloMosaic Idealize.ShloMosaic.ValueIdx

variable (xr : SX.Idx → ℝ) (wqr wkr wvr : SW.Idx → ℝ)

/-- With real inputs the reference's result at (i, d) is the softmax average of column d of x·W_v under the scaled
    scores of row i. -/
theorem result_real (i : Fin 4096) (d : Fin 1024) :
    val_main_v20 (F := Ideal) (up xr) (up wqr) (up wkr) (up wvr) (ix2 i d)
      = ((outR xr wqr wkr wvr i d : ℝ) : EReal) := by
  obtain ⟨ρ, hρ⟩ := v11_real xr wqr wkr i
  rw [val_main_v20_apply]
  have hl : ∀ k : Fin 4096, lidx_main_v20 (ix2 i d) k = ix2 i k := fun k =>
    funext fun a => match a with | ⟨0, _⟩ => rfl | ⟨1, _⟩ => rfl
  have hr : ∀ k : Fin 4096, ridx_main_v20 (ix2 i d) k = ix2 k d := fun k =>
    funext fun a => match a with | ⟨0, _⟩ => rfl | ⟨1, _⟩ => rfl
  simp only [hl, hr, v19_real xr wqr wkr i ρ hρ, v2_real]
  rw [sum_coe_mul_coe
    (fun k : Fin 4096 => Real.exp (scoreR xr wqr wkr i k - ρ) / ∑ j : Fin 4096, Real.exp (scoreR xr wqr wkr i j - ρ))
    (fun k => projR xr wvr k d)]
  haveI : Nonempty (Fin 4096) := ⟨⟨0, by norm_num⟩⟩
  exact congrArg _ (softAvg_shift (fun k : Fin 4096 => scoreR xr wqr wkr i k) (fun k => projR xr wvr k d) ρ)

/-- The same for the whole array. -/
theorem result_real_fun :
    val_main_v20 (F := Ideal) (up xr) (up wqr) (up wkr) (up wvr)
      = fun j => ((outR xr wqr wkr wvr (j 0) (j 1) : ℝ) : EReal) :=
  funext fun j => by rw [eq_ix2 j]; exact result_real xr wqr wkr wvr (j 0) (j 1)

end Cert.ReferenceIdeal.RefValue

end
-- ==== Proof.Value.lean ====
/-
  The value claim. Under the precondition every input entry is a real number; pick those reals. The kernel's result array
  then holds, entry by entry, the specification's softmax average of them (coerced), and so does the reference's: the two
  programs end with equal results.
-/
import proofs.«116390_j18897856102400_2_alg».proof.Defs
import proofs.«116390_j18897856102400_2_alg».proof.Proof.KernelValue
import proofs.«116390_j18897856102400_2_alg».proof.Proof.Finite
import proofs.«116390_j18897856102400_2_alg».proof.Proof.RefValue
import proofs.«116390_j18897856102400_2_alg».proof.Proof.Gen.ReferenceIdeal.Run
import proofs.«116390_j18897856102400_2_alg».proof.Proof.Gen.ReferenceIdeal.Read
import proofs.«116390_j18897856102400_2_alg».proof.Proof.Gen.Kernel
import proofs.«116390_j18897856102400_2_alg».proof.Proof.Gen.KernelIdeal
import proofs.«116390_j18897856102400_2_alg».proof.Proof.Gen.ReferenceIdeal
import proofs.«116390_j18897856102400_2_alg».proof.Proof.Gen.Pre_finite_inputs

noncomputable section

namespace Cert.Proof.Value

open Idealize.ShloMosaic Idealize.ShloMosaic.TcCoe Idealize.ShloMosaic.ValueIdx Idealize.SL.Sem

theorem algebraic : Cert.algebraic_KernelIdeal_ReferenceIdeal := by
  intro m ρ m' ρ' hpre hagree
  choose xr hxr using fun c => (Cert.Attn.real_of_pre _ _ _ _ (hpre c)).1
  choose wqr hwqr using fun c => (Cert.Attn.real_of_pre _ _ _ _ (hpre c)).2.1
  choose wkr hwkr using fun c => (Cert.Attn.real_of_pre _ _ _ _ (hpre c)).2.2.1
  choose wvr hwvr using fun c => (Cert.Attn.real_of_pre _ _ _ _ (hpre c)).2.2.2
  refine ⟨fun c j => ((Cert.Attn.outR (xr c) (wqr c) (wkr c) (wvr c) (j 0) (j 1) : ℝ) : EReal), ?_, ?_⟩
  · refine (θ_run Cert.KernelIdeal.defs _ _).mono (fun r h c => ⟨(h c).1.trans ?_, (h c).2⟩)
      (Cert.KernelIdeal.Hand.run_named (F := Ideal) m ρ)
    funext j
    obtain ⟨i, d, rfl⟩ : ∃ (i : Fin 4096) (d : Fin 1024), j = ix2 i d := ⟨j 0, j 1, eq_ix2 j⟩
    exact Cert.KernelIdeal.Hand.kernel_value m c (xr c) (wqr c) (wkr c) (wvr c)
      (funext (hxr c)) (funext (hwqr c)) (funext (hwkr c)) (funext (hwvr c)) i d
  · refine (θ_run Cert.ReferenceIdeal.defs _ _).mono (fun r h c => ⟨(h c).1.trans ?_, (h c).2⟩)
      (Cert.ReferenceIdeal.Value.run (F := Ideal) m' ρ')
    have e0 : m' ((c.tc : Thread Cert.ReferenceIdeal.nD Cert.ReferenceIdeal.τ).loc Cert.ReferenceIdeal.main_arg0) = Cert.ReferenceIdeal.RefValue.up (xr c) :=
      ((hagree c).1).trans (funext (hxr c))
    have e1 : m' ((c.tc : Thread Cert.ReferenceIdeal.nD Cert.ReferenceIdeal.τ).loc Cert.ReferenceIdeal.main_arg1) = Cert.ReferenceIdeal.RefValue.up (wqr c) :=
      ((hagree c).2.1).trans (funext (hwqr c))
    have e2 : m' ((c.tc : Thread Cert.ReferenceIdeal.nD Cert.ReferenceIdeal.τ).loc Cert.ReferenceIdeal.main_arg2) = Cert.ReferenceIdeal.RefValue.up (wkr c) :=
      ((hagree c).2.2.1).trans (funext (hwkr c))
    have e3 : m' ((c.tc : Thread Cert.ReferenceIdeal.nD Cert.ReferenceIdeal.τ).loc Cert.ReferenceIdeal.main_arg3) = Cert.ReferenceIdeal.RefValue.up (wvr c) :=
      ((hagree c).2.2.2).trans (funext (hwvr c))
    rw [e0, e1, e2, e3]
    exact (Cert.ReferenceIdeal.Read.val_main_v20_eq _ _ _ _).trans
      (Cert.ReferenceIdeal.RefValue.result_real_fun (xr c) (wqr c) (wkr c) (wvr c))

end Cert.Proof.Value

end
-- ==== Proof.lean ====
/-
  Scaled dot-product attention: with Q = x·W_q, K = x·W_k, V = x·W_v, the result is softmax(Q·Kᵀ / 32)·V, row by row.
  The kernel computes the three projections in one pallas_call (the 1/32 folded into Q) and the attention in a second one,
  key/value block by key/value block, with a running row maximum, a running normaliser and a running weighted sum
  (the "online" softmax); the reference computes a max-subtracted softmax of the whole score matrix.
  On the extended reals, with finite inputs, both are the softmax average Σ_k e^{s(i,k)}·V(k,d) / Σ_k e^{s(i,k)}: a
  softmax average is unchanged when one number is subtracted from every score, so neither the reference's row maximum nor
  the kernel's running maxima matter, and rescaling the running sums by e^{m_old − m_new} keeps them equal to the sums
  over the blocks seen so far; moving the factor 1/32 across the contraction is distributivity on finite reals.
  The frames: both printings of the kernel run to the end and leave their arguments as launched; the reference is a line of
  host operations. The idealization rewrote nothing, so `preserves` is trivial.
-/
import proofs.«116390_j18897856102400_2_alg».proof.Defs
import proofs.«116390_j18897856102400_2_alg».proof.Proof.Frames
import proofs.«116390_j18897856102400_2_alg».proof.Proof.Value
import proofs.«116390_j18897856102400_2_alg».proof.Proof.Gen.Kernel
import proofs.«116390_j18897856102400_2_alg».proof.Proof.Gen.KernelIdeal
import proofs.«116390_j18897856102400_2_alg».proof.Proof.Gen.ReferenceIdeal
import proofs.«116390_j18897856102400_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_p, Frames.frame_pi, Frames.frame_ri, trivial, Value.algebraic⟩

end Cert.Proof

end
